-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S4 : Shape := ⟨1, ![4]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4 : S_.BroadcastsInDim S4 (![] : Fin 0 → Fin S4.rank)
  reducesTo_S4_S_d0 : S4.ReducesTo [0] S_

variable [Facts]

def fn {F : FTy → Type} [FloatOps F] (main_arg0 : FVec F S100000x64 .f32) (main_arg1 : IVec S2x1600000 32) (main_arg2 : FVec F S1600000 .f32) (main_arg3 : FVec F S4 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S1600000 : Shape := ⟨1, ![1600000]⟩
abbrev S4 : Shape := ⟨1, ![4]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S12800x64 : Shape := ⟨2, ![12800, 64]⟩
abbrev S12800x1 : Shape := ⟨2, ![12800, 1]⟩
abbrev S1 : Shape := ⟨1, ![1]⟩
abbrev S100000x1x64 : Shape := ⟨3, ![100000, 1, 64]⟩
abbrev S100000x4x64 : Shape := ⟨3, ![100000, 4, 64]⟩

abbrev nBuf : Space → Nat
  | .hbm => 109
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S4, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .i1⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S1600000x1, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S1, .f32⟩
  | .hbm, ⟨74, _⟩ => ⟨S_, .f32⟩
  | .hbm, ⟨75, _⟩ => ⟨S100000x1, .f32⟩
  | .hbm, ⟨76, _⟩ => ⟨S100000x1, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x1, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S1600000x64, .f32⟩
  | .hbm, ⟨93, _⟩ => ⟨S_, .f32⟩
  | .hbm, ⟨94, _⟩ => ⟨S100000x64, .f32⟩
  | .hbm, ⟨95, _⟩ => ⟨S1600000x1, .i32⟩
  | .hbm, ⟨96, _⟩ => ⟨S100000x64, .f32⟩
  | .hbm, ⟨97, _⟩ => ⟨S1, .f32⟩
  | .hbm, ⟨98, _⟩ => ⟨S_, .f32⟩
  | .hbm, ⟨99, _⟩ => ⟨S100000x1, .f32⟩
  | .hbm, ⟨100, _⟩ => ⟨S100000x1, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S100000x1x64, .f32⟩
  | .hbm, ⟨105, _⟩ => ⟨S100000x1x64, .f32⟩
  | .hbm, ⟨106, _⟩ => ⟨S100000x1x64, .f32⟩
  | .hbm, ⟨107, _⟩ => ⟨S100000x1x64, .f32⟩
  | .hbm, ⟨108, _⟩ => ⟨S100000x4x64, .f32⟩
  | .local _ .vmem, ⟨0, _⟩ => ⟨S12800x64, .f32⟩
  | .local _ .vmem, ⟨1, _⟩ => ⟨S12800x64, .f32⟩
  | .local _ .vmem, ⟨2, _⟩ => ⟨S12800x1, .f32⟩
  | .local _ .vmem, ⟨3, _⟩ => ⟨S12800x1, .f32⟩
  | .local _ .vmem, ⟨4, _⟩ => ⟨S12800x64, .f32⟩
  | .local _ .vmem, ⟨5, _⟩ => ⟨S12800x64, .f32⟩
  | .local _ .vmem, ⟨6, _⟩ => ⟨S12800x64, .f32⟩
  | .local _ .vmem, ⟨7, _⟩ => ⟨S12800x64, .f32⟩
  | .local _ .vmem, ⟨8, _⟩ => ⟨S12800x1, .f32⟩
  | .local _ .vmem, ⟨9, _⟩ => ⟨S12800x1, .f32⟩
  | .local _ .vmem, ⟨10, _⟩ => ⟨S12800x64, .f32⟩
  | .local _ .vmem, ⟨11, _⟩ => ⟨S12800x64, .f32⟩
  | .local _ .vmem, ⟨12, _⟩ => ⟨S12800x64, .f32⟩
  | .local _ .vmem, ⟨13, _⟩ => ⟨S12800x64, .f32⟩
  | .local _ .vmem, ⟨14, _⟩ => ⟨S12800x1, .f32⟩
  | .local _ .vmem, ⟨15, _⟩ => ⟨S12800x1, .f32⟩
  | .local _ .vmem, ⟨16, _⟩ => ⟨S12800x64, .f32⟩
  | .local _ .vmem, ⟨17, _⟩ => ⟨S12800x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_10 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12800x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12800x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12800x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S12800x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S4 : S_.BroadcastsInDim S4 (![] : Fin 0 → Fin S4.rank)
  shapeCasts_S1600000_S1600000x1 : S1600000.ShapeCasts S1600000x1
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  broadcasts_S12800x1_S12800x64 : S12800x1.Broadcasts S12800x64
  bcast_S_S100000x64 : S_.BroadcastsInDim S100000x64 (![] : Fin 0 → Fin S100000x64.rank)
  slices_S4_S1_1 : S4.Slices ![1] S1
  shapeCasts_S1_S_ : S1.ShapeCasts S_
  bcast_S_S100000x1 : S_.BroadcastsInDim S100000x1 (![] : Fin 0 → Fin S100000x1.rank)
  slices_S4_S1_2 : S4.Slices ![2] S1
  slices_S4_S1_3 : S4.Slices ![3] S1
  bcast_S100000x64_S100000x1x64_0_2 : S100000x64.BroadcastsInDim S100000x1x64 (![0, 2] : Fin 2 → Fin S100000x1x64.rank)
  concatenates_S100000x1x64_S100000x1x64_S100000x1x64_S100000x1x64_S100000x4x64_d1 : Shape.Concatenates [S100000x1x64, S100000x1x64, S100000x1x64, S100000x1x64] S100000x4x64 1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .f32 = 32 ∨ (Rect.block (s := S1600000x64) S12800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S1600000x1.size a
  hwx0_1 : ∀ i : grid0.Coords, EltTy.bits .f32 = 32 ∨ (Rect.block (s := S1600000x1) S12800x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x64.size a ≤ S1600000x64.size a
  hwx0_2 : ∀ i : grid0.Coords, EltTy.bits .f32 = 32 ∨ (Rect.block (s := S1600000x64) S12800x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x64.size a ≤ S1600000x64.size a
  hwx1_0 : ∀ i : grid1.Coords, EltTy.bits .f32 = 32 ∨ (Rect.block (s := S1600000x64) S12800x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x1.size a ≤ S1600000x1.size a
  hwx1_1 : ∀ i : grid1.Coords, EltTy.bits .f32 = 32 ∨ (Rect.block (s := S1600000x1) S12800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12800x64.size a ≤ S1600000x64.size a
  hwx1_2 : ∀ i : grid1.Coords, EltTy.bits .f32 = 32 ∨ (Rect.block (s := S1600000x64) S12800x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12800x64.size a ≤ S1600000x64.size a
  hwx2_0 : ∀ i : grid2.Coords, EltTy.bits .f32 = 32 ∨ (Rect.block (s := S1600000x64) S12800x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12800x1.size a ≤ S1600000x1.size a
  hwx2_1 : ∀ i : grid2.Coords, EltTy.bits .f32 = 32 ∨ (Rect.block (s := S1600000x1) S12800x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S12800x64.size a ≤ S1600000x64.size a
  hwx2_2 : ∀ i : grid2.Coords, EltTy.bits .f32 = 32 ∨ (Rect.block (s := S1600000x64) S12800x64.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v27) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S12800x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S12800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S12800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S12800x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S12800x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S12800x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S12800x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S4 : Shape := ⟨1, ![4]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1 : Shape := ⟨1, ![1]⟩
abbrev S1600000x64 : Shape := ⟨2, ![1600000, 64]⟩
abbrev S100000x1x64 : Shape := ⟨3, ![100000, 1, 64]⟩
abbrev S100000x4x64 : Shape := ⟨3, ![100000, 4, 64]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S4, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .i1⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S1, .f32⟩
  | .hbm, ⟨52, _⟩ => ⟨S_, .f32⟩
  | .hbm, ⟨53, _⟩ => ⟨S1600000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S1600000x64, .f32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1, .f32⟩
  | .hbm, ⟨72, _⟩ => ⟨S_, .f32⟩
  | .hbm, ⟨73, _⟩ => ⟨S1600000x1, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1, .f32⟩
  | .hbm, ⟨92, _⟩ => ⟨S_, .f32⟩
  | .hbm, ⟨93, _⟩ => ⟨S1600000x1, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .f32⟩
  | .hbm, ⟨103, _⟩ => ⟨S1600000x64, .f32⟩
  | .hbm, ⟨104, _⟩ => ⟨S1600000x64, .f32⟩
  | .hbm, ⟨105, _⟩ => ⟨S_, .f32⟩
  | .hbm, ⟨106, _⟩ => ⟨S100000x64, .f32⟩
  | .hbm, ⟨107, _⟩ => ⟨S1600000x1, .i32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S100000x1x64, .f32⟩
  | .hbm, ⟨112, _⟩ => ⟨S100000x1x64, .f32⟩
  | .hbm, ⟨113, _⟩ => ⟨S100000x1x64, .f32⟩
  | .hbm, ⟨114, _⟩ => ⟨S100000x1x64, .f32⟩
  | .hbm, ⟨115, _⟩ => ⟨S100000x4x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S4 : S_.BroadcastsInDim S4 (![] : Fin 0 → Fin S4.rank)
  slices_S4_S1_1 : S4.Slices ![1] S1
  shapeCasts_S1_S_ : S1.ShapeCasts S_
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S4_S1_2 : S4.Slices ![2] S1
  slices_S4_S1_3 : S4.Slices ![3] S1
  bcast_S100000x64_S100000x1x64_0_2 : S100000x64.BroadcastsInDim S100000x1x64 (![0, 2] : Fin 2 → Fin S100000x1x64.rank)
  concatenates_S100000x1x64_S100000x1x64_S100000x1x64_S100000x1x64_S100000x4x64_d1 : Shape.Concatenates [S100000x1x64, S100000x1x64, S100000x1x64, S100000x1x64] S100000x4x64 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Bits.Blocks.lean ====
/-
  The edge product of each of the three message-passing layers, as data: a layer multiplies, edge by edge, the
  node row gathered for the edge (64 features) by the edge's weight. The 1,600,000 edges are cut into 125 blocks of
  12800 consecutive edges; a grid point reads one block of rows and one block of weights and writes the block of
  products. Stated here, for each layer and at ANY contents `V` of the buffers when the layer's product starts:
  a block of an array, what a grid point leaves in the output block, and the record of the three arrays and
  of what each point leaves.
-/
import proofs.«135441_j21414706938561_1_alg».proof.Proof.Gen.Kernel.Launch
import proofs.«135441_j21414706938561_1_alg».proof.Proof.Gen.Kernel.Skeleton
import proofs.«135441_j21414706938561_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The whole 12800×64 block, as a rectangle. -/
abbrev rG : Rect S12800x64 := Rect.unit (s := S12800x64) ![0, 0] S12800x64.size inb_S12800x64_S12800x64_0_0
/-- The whole 12800×1 block, as a rectangle. -/
abbrev rS : Rect S12800x1 := Rect.unit (s := S12800x1) ![0, 0] S12800x1.size inb_S12800x1_S12800x1_0_0

section
variable (V : (c : Dev nD) → (b : Ref sig .tc) → Buf (Elt F) ((c : Thread nD τ).loc b))

/-! ## Layer 1's edge product: the blocks of its three arrays and what one grid point leaves -/

/-- Block `t` of array `w` (0: the gathered node rows, one per edge; 1: the edge weights as a column; 2: the products),
    read off the array's contents `V` when the layer's edge product starts: 12800 consecutive edges. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What one grid point leaves in the product block: the block of gathered rows times the block of edge weights,
    the weight of an edge repeated along its 64 features. -/
def out0_2 (x0 : Vec F S12800x64 .f32) (x1 : Vec F S12800x1 .f32) : Vec F S12800x64 .f32 :=
  View.canon [⟨rG, k0_pay1 (View.ld x0 rG) (View.ld x1 rS)⟩]

/-- The three arrays as the edge product finds them; after grid point `t` the two inputs' blocks as read and the
    output's block their product; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Layer 2's edge product: the blocks of its three arrays and what one grid point leaves -/

/-- Block `t` of array `w` (0: the gathered node rows, one per edge; 1: the edge weights as a column; 2: the products),
    read off the array's contents `V` when the layer's edge product starts: 12800 consecutive edges. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one grid point leaves in the product block: the block of gathered rows times the block of edge weights,
    the weight of an edge repeated along its 64 features. -/
def out1_2 (x0 : Vec F S12800x64 .f32) (x1 : Vec F S12800x1 .f32) : Vec F S12800x64 .f32 :=
  View.canon [⟨rG, k1_pay1 (View.ld x0 rG) (View.ld x1 rS)⟩]

/-- The three arrays as the edge product finds them; after grid point `t` the two inputs' blocks as read and the
    output's block their product; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Layer 3's edge product: the blocks of its three arrays and what one grid point leaves -/

/-- Block `t` of array `w` (0: the gathered node rows, one per edge; 1: the edge weights as a column; 2: the products),
    read off the array's contents `V` when the layer's edge product starts: 12800 consecutive edges. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What one grid point leaves in the product block: the block of gathered rows times the block of edge weights,
    the weight of an edge repeated along its 64 features. -/
def out2_2 (x0 : Vec F S12800x64 .f32) (x1 : Vec F S12800x1 .f32) : Vec F S12800x64 .f32 :=
  View.canon [⟨rG, k2_pay1 (View.ld x0 rG) (View.ld x1 rS)⟩]

/-- The three arrays as the edge product finds them; after grid point `t` the two inputs' blocks as read and the
    output's block their product; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end

end Cert.Kernel.Layers

end
-- ==== Proof.Bits.Contents.lean ====
/-
  The contents of every buffer of the program at each boundary between its eleven stretches: the launch memory, then
  five stretches of host operations (the edge list split into rows and columns, the degrees, their inverse
  square roots, the layer coefficients, the first scaled features and their gather), then for each of the three
  layers the edge product (125 blocks) followed by the host operations that sum the products into the nodes,
  scale them and gather the next layer's rows; the last stretch also stacks the four feature arrays.
  A host stretch's contents are the operations' results over the previous contents; an edge product changes only
  its own three arrays.
-/
import proofs.«135441_j21414706938561_1_alg».proof.Proof.Bits.Blocks

set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host operations `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the host operations `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- After the host operations `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- After the host operations `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b

/-- After the host operations `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

/-- When layer 1's edge product ends: its three arrays at what the 125 write-backs leave (the inputs as found, the
    products block by block), every other buffer as the product found it. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host operations `hostOps1`. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

/-- When layer 2's edge product ends: its three arrays at what the 125 write-backs leave (the inputs as found, the
    products block by block), every other buffer as the product found it. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the host operations `hostOps2`. -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b

/-- When layer 3's edge product ends: its three arrays at what the 125 write-backs leave (the inputs as found, the
    products block by block), every other buffer as the product found it. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After the host operations `hostOps3`. -/
abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b

/-- No pipeline has a prefetched table. -/
abbrev adm : (p : Fin 3) → (pcfgs (F := F) p).Adm := fun p => (cfgs p).toPCfg_adm
/-- Each layer's record, at the contents its edge product starts from. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c

end Cert.Kernel.Layers

end
-- ==== Proof.Bits.Body.lean ====
/-
  One grid point of each layer's edge product, run on the staging buffers: it reads the block of gathered rows and
  the block of edge weights and stores their product over the whole output block. Stated for each layer at ANY
  contents `V` of the buffers when the product starts: the inputs' staging buffers hold the point's blocks, the
  point runs to the end and leaves the product block, and so every grid point meets the layer's record.
-/
import proofs.«135441_j21414706938561_1_alg».proof.Proof.Bits.Blocks

set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Layer 1's edge product at one grid point -/

/-- The staging buffer of the gathered rows holds block `t` of the rows at grid point `t`, whatever it held before,
    for any record whose row array is `V`'s and whose point leaves that block in place: the block is read anew at
    every point and never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the staging buffer of the edge weights: at grid point `t` it holds block `t` of the weights. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store of a grid point is of the whole 12800×64 block, so it covers every cell of the product block. -/
theorem cover0_2 (p0 : Vec F S12800x64 .f32) (y : S12800x64.Idx) :
    ∃ pc ∈ ([⟨rG, p0⟩] : List (View.Piece (Elt F) S12800x64 .f32)), y ∈ pc.1.set :=
  View.cover_of_tiled [⟨rG, p0⟩] S12800x64.size (by rfl) y

set_option maxHeartbeats 1000000 in
/-- One grid point on whole staging buffers: with the rows' buffer at `x0`, the weights' at `x1` and the products' at
    anything, it runs to the end leaving the two inputs as they were and the products' buffer at `out0_2 x0 x1`. -/
theorem sound_kernel0 (c : Dev nD) (E : Set ℕ) (i : grid0.Coords) (arg1 : Memref sig .tc .vmem S12800x64 .f32) (harg1 : arg1.IsWhole) (arg2 : Memref sig .tc .vmem S12800x1 .f32) (harg2 : arg2.IsWhole) (arg3 : Memref sig .tc .vmem S12800x64 .f32) (harg3 : arg3.IsWhole)
    (x0 : Vec F S12800x64 .f32) (x1 : Vec F S12800x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mul_kernel i arg1 harg1 arg2 harg2 arg3 harg3) K := by
  simp only [cc0__mul_kernel_eq_skeleton]; unfold cc0__mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- In the layer's record each input's staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What grid point `t` starts from: the untouched rest, nothing owed, and the three staging buffers at their contents
    before the point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What grid point `t` leaves: the same rest, nothing owed, and the three staging buffers at the record's contents
    after the point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- Grid point `t` of the edge product: the inputs' buffers hold block `t` of the rows and of the weights, so the
    point leaves their product in the output's buffer; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer's edge product meets the record. -/
theorem body_obligation0 (c : Dev nD) : BodyObligation (dat0 (F := F) V c) (defs₀ (F := F)) Variants.none () Set.univ := fun t => by
  rw [bigSep_W0, bigSep_W0]
  exact sound_body0 V c t

/-! ## Layer 2's edge product at one grid point -/

/-- The staging buffer of the gathered rows holds block `t` of the rows at grid point `t`, whatever it held before,
    for any record whose row array is `V`'s and whose point leaves that block in place: the block is read anew at
    every point and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the staging buffer of the edge weights: at grid point `t` it holds block `t` of the weights. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store of a grid point is of the whole 12800×64 block, so it covers every cell of the product block. -/
theorem cover1_2 (p0 : Vec F S12800x64 .f32) (y : S12800x64.Idx) :
    ∃ pc ∈ ([⟨rG, p0⟩] : List (View.Piece (Elt F) S12800x64 .f32)), y ∈ pc.1.set :=
  View.cover_of_tiled [⟨rG, p0⟩] S12800x64.size (by rfl) y

set_option maxHeartbeats 1000000 in
/-- One grid point on whole staging buffers: with the rows' buffer at `x0`, the weights' at `x1` and the products' at
    anything, it runs to the end leaving the two inputs as they were and the products' buffer at `out1_2 x0 x1`. -/
theorem sound_kernel1 (c : Dev nD) (E : Set ℕ) (i : grid1.Coords) (arg1 : Memref sig .tc .vmem S12800x64 .f32) (harg1 : arg1.IsWhole) (arg2 : Memref sig .tc .vmem S12800x1 .f32) (harg2 : arg2.IsWhole) (arg3 : Memref sig .tc .vmem S12800x64 .f32) (harg3 : arg3.IsWhole)
    (x0 : Vec F S12800x64 .f32) (x1 : Vec F S12800x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mul_kernel i arg1 harg1 arg2 harg2 arg3 harg3) K := by
  simp only [cc1__mul_kernel_eq_skeleton]; unfold cc1__mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- In the layer's record each input's staging buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What grid point `t` starts from: the untouched rest, nothing owed, and the three staging buffers at their contents
    before the point. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What grid point `t` leaves: the same rest, nothing owed, and the three staging buffers at the record's contents
    after the point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- Grid point `t` of the edge product: the inputs' buffers hold block `t` of the rows and of the weights, so the
    point leaves their product in the output's buffer; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer's edge product meets the record. -/
theorem body_obligation1 (c : Dev nD) : BodyObligation (dat1 (F := F) V c) (defs₀ (F := F)) Variants.none () Set.univ := fun t => by
  rw [bigSep_W1, bigSep_W1]
  exact sound_body1 V c t

/-! ## Layer 3's edge product at one grid point -/

/-- The staging buffer of the gathered rows holds block `t` of the rows at grid point `t`, whatever it held before,
    for any record whose row array is `V`'s and whose point leaves that block in place: the block is read anew at
    every point and never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the staging buffer of the edge weights: at grid point `t` it holds block `t` of the weights. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one store of a grid point is of the whole 12800×64 block, so it covers every cell of the product block. -/
theorem cover2_2 (p0 : Vec F S12800x64 .f32) (y : S12800x64.Idx) :
    ∃ pc ∈ ([⟨rG, p0⟩] : List (View.Piece (Elt F) S12800x64 .f32)), y ∈ pc.1.set :=
  View.cover_of_tiled [⟨rG, p0⟩] S12800x64.size (by rfl) y

set_option maxHeartbeats 1000000 in
/-- One grid point on whole staging buffers: with the rows' buffer at `x0`, the weights' at `x1` and the products' at
    anything, it runs to the end leaving the two inputs as they were and the products' buffer at `out2_2 x0 x1`. -/
theorem sound_kernel2 (c : Dev nD) (E : Set ℕ) (i : grid2.Coords) (arg1 : Memref sig .tc .vmem S12800x64 .f32) (harg1 : arg1.IsWhole) (arg2 : Memref sig .tc .vmem S12800x1 .f32) (harg2 : arg2.IsWhole) (arg3 : Memref sig .tc .vmem S12800x64 .f32) (harg3 : arg3.IsWhole)
    (x0 : Vec F S12800x64 .f32) (x1 : Vec F S12800x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mul_kernel i arg1 harg1 arg2 harg2 arg3 harg3) K := by
  simp only [cc2__mul_kernel_eq_skeleton]; unfold cc2__mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- In the layer's record each input's staging buffer holds its block at every grid point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What grid point `t` starts from: the untouched rest, nothing owed, and the three staging buffers at their contents
    before the point. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What grid point `t` leaves: the same rest, nothing owed, and the three staging buffers at the record's contents
    after the point. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- Grid point `t` of the edge product: the inputs' buffers hold block `t` of the rows and of the weights, so the
    point leaves their product in the output's buffer; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer's edge product meets the record. -/
theorem body_obligation2 (c : Dev nD) : BodyObligation (dat2 (F := F) V c) (defs₀ (F := F)) Variants.none () Set.univ := fun t => by
  rw [bigSep_W2, bigSep_W2]
  exact sound_body2 V c t

end

end Cert.Kernel.Layers

end
-- ==== Proof.Bits.Run.lean ====
/-
  The whole program, run from any launch memory: five stretches of host operations, then three times a layer's edge
  product (125 grid points) followed by the host operations that use it. Between two stretches a core holds every
  unscoped buffer at the boundary's contents `W0 … W11`, its pseudo-random register at some state, and owes nothing.
  Every fair execution on the TensorCores ends, every unscoped buffer then holds its value in `W11`, and the four
  argument arrays, which no stretch writes, hold what they were launched with.
-/
import proofs.«135441_j21414706938561_1_alg».proof.Proof.Bits.Contents
import proofs.«135441_j21414706938561_1_alg».proof.Proof.Bits.Body
import proofs.«135441_j21414706938561_1_alg».proof.Proof.Gen.Kernel.Regions

set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a core holds between two stretches -/

abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers through every stretch: its pseudo-random register at some state, and nothing owed. -/
abbrev R (c : Dev nD) : sProp 𝕄 := iprop((∃ r, prngReg c r) ∗ ∃ W, owes (c : Thread nD τ) (0 : CellTallies nD τ sig Unit) W)
/-- A stretch of host operations run from the contents `W`: it leaves every unscoped buffer at the operations' results
    over `W`, the rest of what the core holds riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore buffer is among those a core holds between stretches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, beside owing nothing: every unscoped buffer at its last contents `W11`, the pseudo-random
    register at some state. -/
abbrev Tₙ (c : Dev nD) : sProp 𝕄 := iprop(StableHlo.held (c : Thread nD τ) (Pipeline.ucRefs τ sig) (W11 m ρ c) ∗ ∃ r, prngReg c r)

/-- What the last stretch leaves is what a core holds at the end, beside owing nothing. -/
theorem ends_owing_nothing (c : Dev nD) :
    iprop(StableHlo.held (c : Thread nD τ) (Pipeline.ucRefs τ sig) (W11 m ρ c) ∗ (∃ r, prngReg c r) ∗ ∃ W, owes (c : Thread nD τ) (0 : CellTallies nD τ sig Unit) W)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The three edge products as stretches -/

set_option backward.isDefEq.respectTransparency.types false in
/-- Layer 1's edge product as a stretch of the run: entered with every unscoped buffer at `W5`, left with them
    at `W6`. Its three arrays are taken out of the unscoped buffers and put back at what the 125 write-backs leave;
    the pseudo-random register goes in and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's edge product as a stretch of the run: entered with every unscoped buffer at `W7`, left with them
    at `W8`. Its three arrays are taken out of the unscoped buffers and put back at what the 125 write-backs leave;
    the pseudo-random register goes in and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's edge product as a stretch of the run: entered with every unscoped buffer at `W9`, left with them
    at `W10`. Its three arrays are taken out of the unscoped buffers and put back at what the 125 write-backs leave;
    the pseudo-random register goes in and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as eleven stretches, and its run -/

/-- The eleven stretches in order: five of host operations, then each layer's edge product followed by the host
    operations after it, every stretch started from the contents the one before leaves. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)) ]
/-- The program is the eleven stretches run one after the other. -/
theorem main_run (c : Dev nD) : main (F := F) c = Pipeline.Seg.run (segs m ρ) := (main_chain c).trans (by chain_rfl)

set_option backward.isDefEq.respectTransparency.types false in
/-- From any launch memory with zero counters, every weakly fair execution of the program on the TensorCores ends,
    nothing faulting, and in every final state each unscoped buffer of each core holds its value in `W11`: the launch
    memory carried through the eleven stretches. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => ends_owing_nothing m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- No stretch writes an argument array: the host operations write only their own results, an edge product only its
    three arrays, so at the end each argument holds what it was launched with. -/
theorem W11_main_arg0 (c : Dev nD) : W11 m ρ c (Proc.devRef .tc main_arg0) = m ((c : Thread nD τ).loc main_arg0) :=
  (StableHlo.after_of_writes_sub hostOps3 _ hostOps3_writes (by decide)).trans <| (W10_of_ne m ρ c main_arg0 (by decide)).trans <| (StableHlo.after_of_writes_sub hostOps2 _ hostOps2_writes (by decide)).trans <| (W8_of_ne m ρ c main_arg0 (by decide)).trans <|
    (StableHlo.after_of_writes_sub hostOps1 _ hostOps1_writes (by decide)).trans <| (W6_of_ne m ρ c main_arg0 (by decide)).trans <| (StableHlo.after_of_writes_sub hostOps0_4 _ hostOps0_4_writes (by decide)).trans <| (StableHlo.after_of_writes_sub hostOps0_3 _ hostOps0_3_writes (by decide)).trans <|
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl
theorem W11_main_arg1 (c : Dev nD) : W11 m ρ c (Proc.devRef .tc main_arg1) = m ((c : Thread nD τ).loc main_arg1) :=
  (StableHlo.after_of_writes_sub hostOps3 _ hostOps3_writes (by decide)).trans <| (W10_of_ne m ρ c main_arg1 (by decide)).trans <| (StableHlo.after_of_writes_sub hostOps2 _ hostOps2_writes (by decide)).trans <| (W8_of_ne m ρ c main_arg1 (by decide)).trans <|
    (StableHlo.after_of_writes_sub hostOps1 _ hostOps1_writes (by decide)).trans <| (W6_of_ne m ρ c main_arg1 (by decide)).trans <| (StableHlo.after_of_writes_sub hostOps0_4 _ hostOps0_4_writes (by decide)).trans <| (StableHlo.after_of_writes_sub hostOps0_3 _ hostOps0_3_writes (by decide)).trans <|
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl
theorem W11_main_arg2 (c : Dev nD) : W11 m ρ c (Proc.devRef .tc main_arg2) = m ((c : Thread nD τ).loc main_arg2) :=
  (StableHlo.after_of_writes_sub hostOps3 _ hostOps3_writes (by decide)).trans <| (W10_of_ne m ρ c main_arg2 (by decide)).trans <| (StableHlo.after_of_writes_sub hostOps2 _ hostOps2_writes (by decide)).trans <| (W8_of_ne m ρ c main_arg2 (by decide)).trans <|
    (StableHlo.after_of_writes_sub hostOps1 _ hostOps1_writes (by decide)).trans <| (W6_of_ne m ρ c main_arg2 (by decide)).trans <| (StableHlo.after_of_writes_sub hostOps0_4 _ hostOps0_4_writes (by decide)).trans <| (StableHlo.after_of_writes_sub hostOps0_3 _ hostOps0_3_writes (by decide)).trans <|
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl
theorem W11_main_arg3 (c : Dev nD) : W11 m ρ c (Proc.devRef .tc main_arg3) = m ((c : Thread nD τ).loc main_arg3) :=
  (StableHlo.after_of_writes_sub hostOps3 _ hostOps3_writes (by decide)).trans <| (W10_of_ne m ρ c main_arg3 (by decide)).trans <| (StableHlo.after_of_writes_sub hostOps2 _ hostOps2_writes (by decide)).trans <| (W8_of_ne m ρ c main_arg3 (by decide)).trans <|
    (StableHlo.after_of_writes_sub hostOps1 _ hostOps1_writes (by decide)).trans <| (W6_of_ne m ρ c main_arg3 (by decide)).trans <| (StableHlo.after_of_writes_sub hostOps0_4 _ hostOps0_4_writes (by decide)).trans <| (StableHlo.after_of_writes_sub hostOps0_3 _ hostOps0_3_writes (by decide)).trans <|
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl

/-- From any launch memory with zero counters, every weakly fair execution of the program on the TensorCores ends and
    leaves the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.Kernel.Layers

end
-- ==== Proof.Ideal.Blocks.lean ====
/-
  The edge product of each of the three message-passing layers, as data: a layer multiplies, edge by edge, the
  node row gathered for the edge (64 features) by the edge's weight. The 1,600,000 edges are cut into 125 blocks of
  12800 consecutive edges; a grid point reads one block of rows and one block of weights and writes the block of
  products. Stated here, for each layer and at ANY contents `V` of the buffers when the layer's product starts:
  a block of an array, what a grid point leaves in the output block, and the record of the three arrays and
  of what each point leaves.
-/
import proofs.«135441_j21414706938561_1_alg».proof.Proof.Gen.KernelIdeal.Launch
import proofs.«135441_j21414706938561_1_alg».proof.Proof.Gen.KernelIdeal.Skeleton
import proofs.«135441_j21414706938561_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The whole 12800×64 block, as a rectangle. -/
abbrev rG : Rect S12800x64 := Rect.unit (s := S12800x64) ![0, 0] S12800x64.size inb_S12800x64_S12800x64_0_0
/-- The whole 12800×1 block, as a rectangle. -/
abbrev rS : Rect S12800x1 := Rect.unit (s := S12800x1) ![0, 0] S12800x1.size inb_S12800x1_S12800x1_0_0

section
variable (V : (c : Dev nD) → (b : Ref sig .tc) → Buf (Elt F) ((c : Thread nD τ).loc b))

/-! ## Layer 1's edge product: the blocks of its three arrays and what one grid point leaves -/

/-- Block `t` of array `w` (0: the gathered node rows, one per edge; 1: the edge weights as a column; 2: the products),
    read off the array's contents `V` when the layer's edge product starts: 12800 consecutive edges. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What one grid point leaves in the product block: the block of gathered rows times the block of edge weights,
    the weight of an edge repeated along its 64 features. -/
def out0_2 (x0 : Vec F S12800x64 .f32) (x1 : Vec F S12800x1 .f32) : Vec F S12800x64 .f32 :=
  View.canon [⟨rG, k0_pay1 (View.ld x0 rG) (View.ld x1 rS)⟩]

/-- The three arrays as the edge product finds them; after grid point `t` the two inputs' blocks as read and the
    output's block their product; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Layer 2's edge product: the blocks of its three arrays and what one grid point leaves -/

/-- Block `t` of array `w` (0: the gathered node rows, one per edge; 1: the edge weights as a column; 2: the products),
    read off the array's contents `V` when the layer's edge product starts: 12800 consecutive edges. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one grid point leaves in the product block: the block of gathered rows times the block of edge weights,
    the weight of an edge repeated along its 64 features. -/
def out1_2 (x0 : Vec F S12800x64 .f32) (x1 : Vec F S12800x1 .f32) : Vec F S12800x64 .f32 :=
  View.canon [⟨rG, k1_pay1 (View.ld x0 rG) (View.ld x1 rS)⟩]

/-- The three arrays as the edge product finds them; after grid point `t` the two inputs' blocks as read and the
    output's block their product; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Layer 3's edge product: the blocks of its three arrays and what one grid point leaves -/

/-- Block `t` of array `w` (0: the gathered node rows, one per edge; 1: the edge weights as a column; 2: the products),
    read off the array's contents `V` when the layer's edge product starts: 12800 consecutive edges. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What one grid point leaves in the product block: the block of gathered rows times the block of edge weights,
    the weight of an edge repeated along its 64 features. -/
def out2_2 (x0 : Vec F S12800x64 .f32) (x1 : Vec F S12800x1 .f32) : Vec F S12800x64 .f32 :=
  View.canon [⟨rG, k2_pay1 (View.ld x0 rG) (View.ld x1 rS)⟩]

/-- The three arrays as the edge product finds them; after grid point `t` the two inputs' blocks as read and the
    output's block their product; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end

end Cert.KernelIdeal.Layers

end
-- ==== Proof.Ideal.Contents.lean ====
/-
  The contents of every buffer of the program at each boundary between its eleven stretches: the launch memory, then
  five stretches of host operations (the edge list split into rows and columns, the degrees, their inverse
  square roots, the layer coefficients, the first scaled features and their gather), then for each of the three
  layers the edge product (125 blocks) followed by the host operations that sum the products into the nodes,
  scale them and gather the next layer's rows; the last stretch also stacks the four feature arrays.
  A host stretch's contents are the operations' results over the previous contents; an edge product changes only
  its own three arrays.
-/
import proofs.«135441_j21414706938561_1_alg».proof.Proof.Ideal.Blocks

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host operations `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the host operations `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- After the host operations `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- After the host operations `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b

/-- After the host operations `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

/-- When layer 1's edge product ends: its three arrays at what the 125 write-backs leave (the inputs as found, the
    products block by block), every other buffer as the product found it. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host operations `hostOps1`. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

/-- When layer 2's edge product ends: its three arrays at what the 125 write-backs leave (the inputs as found, the
    products block by block), every other buffer as the product found it. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the host operations `hostOps2`. -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b

/-- When layer 3's edge product ends: its three arrays at what the 125 write-backs leave (the inputs as found, the
    products block by block), every other buffer as the product found it. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After the host operations `hostOps3`. -/
abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b

/-- No pipeline has a prefetched table. -/
abbrev adm : (p : Fin 3) → (pcfgs (F := F) p).Adm := fun p => (cfgs p).toPCfg_adm
/-- Each layer's record, at the contents its edge product starts from. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c

end Cert.KernelIdeal.Layers

end
-- ==== Proof.Ideal.Body.lean ====
/-
  One grid point of each layer's edge product, run on the staging buffers: it reads the block of gathered rows and
  the block of edge weights and stores their product over the whole output block. Stated for each layer at ANY
  contents `V` of the buffers when the product starts: the inputs' staging buffers hold the point's blocks, the
  point runs to the end and leaves the product block, and so every grid point meets the layer's record.
-/
import proofs.«135441_j21414706938561_1_alg».proof.Proof.Ideal.Blocks

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Layer 1's edge product at one grid point -/

/-- The staging buffer of the gathered rows holds block `t` of the rows at grid point `t`, whatever it held before,
    for any record whose row array is `V`'s and whose point leaves that block in place: the block is read anew at
    every point and never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the staging buffer of the edge weights: at grid point `t` it holds block `t` of the weights. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store of a grid point is of the whole 12800×64 block, so it covers every cell of the product block. -/
theorem cover0_2 (p0 : Vec F S12800x64 .f32) (y : S12800x64.Idx) :
    ∃ pc ∈ ([⟨rG, p0⟩] : List (View.Piece (Elt F) S12800x64 .f32)), y ∈ pc.1.set :=
  View.cover_of_tiled [⟨rG, p0⟩] S12800x64.size (by rfl) y

set_option maxHeartbeats 1000000 in
/-- One grid point on whole staging buffers: with the rows' buffer at `x0`, the weights' at `x1` and the products' at
    anything, it runs to the end leaving the two inputs as they were and the products' buffer at `out0_2 x0 x1`. -/
theorem sound_kernel0 (c : Dev nD) (E : Set ℕ) (i : grid0.Coords) (arg1 : Memref sig .tc .vmem S12800x64 .f32) (harg1 : arg1.IsWhole) (arg2 : Memref sig .tc .vmem S12800x1 .f32) (harg2 : arg2.IsWhole) (arg3 : Memref sig .tc .vmem S12800x64 .f32) (harg3 : arg3.IsWhole)
    (x0 : Vec F S12800x64 .f32) (x1 : Vec F S12800x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mul_kernel i arg1 harg1 arg2 harg2 arg3 harg3) K := by
  simp only [cc0__mul_kernel_eq_skeleton]; unfold cc0__mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- In the layer's record each input's staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What grid point `t` starts from: the untouched rest, nothing owed, and the three staging buffers at their contents
    before the point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What grid point `t` leaves: the same rest, nothing owed, and the three staging buffers at the record's contents
    after the point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- Grid point `t` of the edge product: the inputs' buffers hold block `t` of the rows and of the weights, so the
    point leaves their product in the output's buffer; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer's edge product meets the record. -/
theorem body_obligation0 (c : Dev nD) : BodyObligation (dat0 (F := F) V c) (defs₀ (F := F)) Variants.none () Set.univ := fun t => by
  rw [bigSep_W0, bigSep_W0]
  exact sound_body0 V c t

/-! ## Layer 2's edge product at one grid point -/

/-- The staging buffer of the gathered rows holds block `t` of the rows at grid point `t`, whatever it held before,
    for any record whose row array is `V`'s and whose point leaves that block in place: the block is read anew at
    every point and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the staging buffer of the edge weights: at grid point `t` it holds block `t` of the weights. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store of a grid point is of the whole 12800×64 block, so it covers every cell of the product block. -/
theorem cover1_2 (p0 : Vec F S12800x64 .f32) (y : S12800x64.Idx) :
    ∃ pc ∈ ([⟨rG, p0⟩] : List (View.Piece (Elt F) S12800x64 .f32)), y ∈ pc.1.set :=
  View.cover_of_tiled [⟨rG, p0⟩] S12800x64.size (by rfl) y

set_option maxHeartbeats 1000000 in
/-- One grid point on whole staging buffers: with the rows' buffer at `x0`, the weights' at `x1` and the products' at
    anything, it runs to the end leaving the two inputs as they were and the products' buffer at `out1_2 x0 x1`. -/
theorem sound_kernel1 (c : Dev nD) (E : Set ℕ) (i : grid1.Coords) (arg1 : Memref sig .tc .vmem S12800x64 .f32) (harg1 : arg1.IsWhole) (arg2 : Memref sig .tc .vmem S12800x1 .f32) (harg2 : arg2.IsWhole) (arg3 : Memref sig .tc .vmem S12800x64 .f32) (harg3 : arg3.IsWhole)
    (x0 : Vec F S12800x64 .f32) (x1 : Vec F S12800x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mul_kernel i arg1 harg1 arg2 harg2 arg3 harg3) K := by
  simp only [cc1__mul_kernel_eq_skeleton]; unfold cc1__mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- In the layer's record each input's staging buffer holds its block at every grid point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What grid point `t` starts from: the untouched rest, nothing owed, and the three staging buffers at their contents
    before the point. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What grid point `t` leaves: the same rest, nothing owed, and the three staging buffers at the record's contents
    after the point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- Grid point `t` of the edge product: the inputs' buffers hold block `t` of the rows and of the weights, so the
    point leaves their product in the output's buffer; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer's edge product meets the record. -/
theorem body_obligation1 (c : Dev nD) : BodyObligation (dat1 (F := F) V c) (defs₀ (F := F)) Variants.none () Set.univ := fun t => by
  rw [bigSep_W1, bigSep_W1]
  exact sound_body1 V c t

/-! ## Layer 3's edge product at one grid point -/

/-- The staging buffer of the gathered rows holds block `t` of the rows at grid point `t`, whatever it held before,
    for any record whose row array is `V`'s and whose point leaves that block in place: the block is read anew at
    every point and never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the staging buffer of the edge weights: at grid point `t` it holds block `t` of the weights. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one store of a grid point is of the whole 12800×64 block, so it covers every cell of the product block. -/
theorem cover2_2 (p0 : Vec F S12800x64 .f32) (y : S12800x64.Idx) :
    ∃ pc ∈ ([⟨rG, p0⟩] : List (View.Piece (Elt F) S12800x64 .f32)), y ∈ pc.1.set :=
  View.cover_of_tiled [⟨rG, p0⟩] S12800x64.size (by rfl) y

set_option maxHeartbeats 1000000 in
/-- One grid point on whole staging buffers: with the rows' buffer at `x0`, the weights' at `x1` and the products' at
    anything, it runs to the end leaving the two inputs as they were and the products' buffer at `out2_2 x0 x1`. -/
theorem sound_kernel2 (c : Dev nD) (E : Set ℕ) (i : grid2.Coords) (arg1 : Memref sig .tc .vmem S12800x64 .f32) (harg1 : arg1.IsWhole) (arg2 : Memref sig .tc .vmem S12800x1 .f32) (harg2 : arg2.IsWhole) (arg3 : Memref sig .tc .vmem S12800x64 .f32) (harg3 : arg3.IsWhole)
    (x0 : Vec F S12800x64 .f32) (x1 : Vec F S12800x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mul_kernel i arg1 harg1 arg2 harg2 arg3 harg3) K := by
  simp only [cc2__mul_kernel_eq_skeleton]; unfold cc2__mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- In the layer's record each input's staging buffer holds its block at every grid point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What grid point `t` starts from: the untouched rest, nothing owed, and the three staging buffers at their contents
    before the point. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What grid point `t` leaves: the same rest, nothing owed, and the three staging buffers at the record's contents
    after the point. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- Grid point `t` of the edge product: the inputs' buffers hold block `t` of the rows and of the weights, so the
    point leaves their product in the output's buffer; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer's edge product meets the record. -/
theorem body_obligation2 (c : Dev nD) : BodyObligation (dat2 (F := F) V c) (defs₀ (F := F)) Variants.none () Set.univ := fun t => by
  rw [bigSep_W2, bigSep_W2]
  exact sound_body2 V c t

end

end Cert.KernelIdeal.Layers

end
-- ==== Proof.Ideal.Run.lean ====
/-
  The whole program, run from any launch memory: five stretches of host operations, then three times a layer's edge
  product (125 grid points) followed by the host operations that use it. Between two stretches a core holds every
  unscoped buffer at the boundary's contents `W0 … W11`, its pseudo-random register at some state, and owes nothing.
  Every fair execution on the TensorCores ends, every unscoped buffer then holds its value in `W11`, and the four
  argument arrays, which no stretch writes, hold what they were launched with.
-/
import proofs.«135441_j21414706938561_1_alg».proof.Proof.Ideal.Contents
import proofs.«135441_j21414706938561_1_alg».proof.Proof.Ideal.Body
import proofs.«135441_j21414706938561_1_alg».proof.Proof.Gen.KernelIdeal.Regions

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a core holds between two stretches -/

abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers through every stretch: its pseudo-random register at some state, and nothing owed. -/
abbrev R (c : Dev nD) : sProp 𝕄 := iprop((∃ r, prngReg c r) ∗ ∃ W, owes (c : Thread nD τ) (0 : CellTallies nD τ sig Unit) W)
/-- A stretch of host operations run from the contents `W`: it leaves every unscoped buffer at the operations' results
    over `W`, the rest of what the core holds riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore buffer is among those a core holds between stretches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, beside owing nothing: every unscoped buffer at its last contents `W11`, the pseudo-random
    register at some state. -/
abbrev Tₙ (c : Dev nD) : sProp 𝕄 := iprop(StableHlo.held (c : Thread nD τ) (Pipeline.ucRefs τ sig) (W11 m ρ c) ∗ ∃ r, prngReg c r)

/-- What the last stretch leaves is what a core holds at the end, beside owing nothing. -/
theorem ends_owing_nothing (c : Dev nD) :
    iprop(StableHlo.held (c : Thread nD τ) (Pipeline.ucRefs τ sig) (W11 m ρ c) ∗ (∃ r, prngReg c r) ∗ ∃ W, owes (c : Thread nD τ) (0 : CellTallies nD τ sig Unit) W)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The three edge products as stretches -/

set_option backward.isDefEq.respectTransparency.types false in
/-- Layer 1's edge product as a stretch of the run: entered with every unscoped buffer at `W5`, left with them
    at `W6`. Its three arrays are taken out of the unscoped buffers and put back at what the 125 write-backs leave;
    the pseudo-random register goes in and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's edge product as a stretch of the run: entered with every unscoped buffer at `W7`, left with them
    at `W8`. Its three arrays are taken out of the unscoped buffers and put back at what the 125 write-backs leave;
    the pseudo-random register goes in and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's edge product as a stretch of the run: entered with every unscoped buffer at `W9`, left with them
    at `W10`. Its three arrays are taken out of the unscoped buffers and put back at what the 125 write-backs leave;
    the pseudo-random register goes in and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as eleven stretches, and its run -/

/-- The eleven stretches in order: five of host operations, then each layer's edge product followed by the host
    operations after it, every stretch started from the contents the one before leaves. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)) ]
/-- The program is the eleven stretches run one after the other. -/
theorem main_run (c : Dev nD) : main (F := F) c = Pipeline.Seg.run (segs m ρ) := (main_chain c).trans (by chain_rfl)

set_option backward.isDefEq.respectTransparency.types false in
/-- From any launch memory with zero counters, every weakly fair execution of the program on the TensorCores ends,
    nothing faulting, and in every final state each unscoped buffer of each core holds its value in `W11`: the launch
    memory carried through the eleven stretches. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => ends_owing_nothing m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- No stretch writes an argument array: the host operations write only their own results, an edge product only its
    three arrays, so at the end each argument holds what it was launched with. -/
theorem W11_main_arg0 (c : Dev nD) : W11 m ρ c (Proc.devRef .tc main_arg0) = m ((c : Thread nD τ).loc main_arg0) :=
  (StableHlo.after_of_writes_sub hostOps3 _ hostOps3_writes (by decide)).trans <| (W10_of_ne m ρ c main_arg0 (by decide)).trans <| (StableHlo.after_of_writes_sub hostOps2 _ hostOps2_writes (by decide)).trans <| (W8_of_ne m ρ c main_arg0 (by decide)).trans <|
    (StableHlo.after_of_writes_sub hostOps1 _ hostOps1_writes (by decide)).trans <| (W6_of_ne m ρ c main_arg0 (by decide)).trans <| (StableHlo.after_of_writes_sub hostOps0_4 _ hostOps0_4_writes (by decide)).trans <| (StableHlo.after_of_writes_sub hostOps0_3 _ hostOps0_3_writes (by decide)).trans <|
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl
theorem W11_main_arg1 (c : Dev nD) : W11 m ρ c (Proc.devRef .tc main_arg1) = m ((c : Thread nD τ).loc main_arg1) :=
  (StableHlo.after_of_writes_sub hostOps3 _ hostOps3_writes (by decide)).trans <| (W10_of_ne m ρ c main_arg1 (by decide)).trans <| (StableHlo.after_of_writes_sub hostOps2 _ hostOps2_writes (by decide)).trans <| (W8_of_ne m ρ c main_arg1 (by decide)).trans <|
    (StableHlo.after_of_writes_sub hostOps1 _ hostOps1_writes (by decide)).trans <| (W6_of_ne m ρ c main_arg1 (by decide)).trans <| (StableHlo.after_of_writes_sub hostOps0_4 _ hostOps0_4_writes (by decide)).trans <| (StableHlo.after_of_writes_sub hostOps0_3 _ hostOps0_3_writes (by decide)).trans <|
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl
theorem W11_main_arg2 (c : Dev nD) : W11 m ρ c (Proc.devRef .tc main_arg2) = m ((c : Thread nD τ).loc main_arg2) :=
  (StableHlo.after_of_writes_sub hostOps3 _ hostOps3_writes (by decide)).trans <| (W10_of_ne m ρ c main_arg2 (by decide)).trans <| (StableHlo.after_of_writes_sub hostOps2 _ hostOps2_writes (by decide)).trans <| (W8_of_ne m ρ c main_arg2 (by decide)).trans <|
    (StableHlo.after_of_writes_sub hostOps1 _ hostOps1_writes (by decide)).trans <| (W6_of_ne m ρ c main_arg2 (by decide)).trans <| (StableHlo.after_of_writes_sub hostOps0_4 _ hostOps0_4_writes (by decide)).trans <| (StableHlo.after_of_writes_sub hostOps0_3 _ hostOps0_3_writes (by decide)).trans <|
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl
theorem W11_main_arg3 (c : Dev nD) : W11 m ρ c (Proc.devRef .tc main_arg3) = m ((c : Thread nD τ).loc main_arg3) :=
  (StableHlo.after_of_writes_sub hostOps3 _ hostOps3_writes (by decide)).trans <| (W10_of_ne m ρ c main_arg3 (by decide)).trans <| (StableHlo.after_of_writes_sub hostOps2 _ hostOps2_writes (by decide)).trans <| (W8_of_ne m ρ c main_arg3 (by decide)).trans <|
    (StableHlo.after_of_writes_sub hostOps1 _ hostOps1_writes (by decide)).trans <| (W6_of_ne m ρ c main_arg3 (by decide)).trans <| (StableHlo.after_of_writes_sub hostOps0_4 _ hostOps0_4_writes (by decide)).trans <| (StableHlo.after_of_writes_sub hostOps0_3 _ hostOps0_3_writes (by decide)).trans <|
    (StableHlo.after_of_writes_sub hostOps0_2 _ hostOps0_2_writes (by decide)).trans <| (StableHlo.after_of_writes_sub hostOps0_1 _ hostOps0_1_writes (by decide)).trans <| (StableHlo.after_of_writes_sub hostOps0 _ hostOps0_writes (by decide)).trans rfl

/-- From any launch memory with zero counters, every weakly fair execution of the program on the TensorCores ends and
    leaves the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.KernelIdeal.Layers

end
-- ==== Proof.EdgeIndex.lean ====
/-
  Which entries the program's gathers read and where its scatter-adds land. The edge list gives every edge `e` an
  integer; a gather of node rows reads, for edge `e`, the node whose number is that integer read signed and clamped into
  `[0, 99999]`; a scatter-add of edge rows sends row `e` to the node whose number is the integer read signed, and drops
  the row when that is not a node. Feature columns are carried along unchanged. Stated for the three dimension
  records of the program (a gather of nodes' scalars, a gather of nodes' rows, a scatter-add of rows).
-/
import Idealize.ShloMosaic.PureOps.Dims
import Idealize.ShloMosaic.PureOps.ShapeOps
import Idealize.ShloMosaic.Lib.ValueIdx

namespace Cert.EdgeIndex

open Idealize.ShloMosaic

abbrev Sn : Shape := ⟨1, ![100000]⟩
abbrev Snd : Shape := ⟨2, ![100000, 64]⟩
abbrev Se : Shape := ⟨1, ![1600000]⟩
abbrev Se1 : Shape := ⟨2, ![1600000, 1]⟩
abbrev Sed : Shape := ⟨2, ![1600000, 64]⟩

/-- The gather of nodes' scalars at one integer per edge. -/
abbrev nodeGather (wf : GatherDims.WF Sn Se1 Se [] [0] [] [0] [] 1 ![1]) : GatherDims Sn Se1 Se where
  offsetDims := []
  collapsedSliceDims := [0]
  operandBatchingDims := []
  startIndicesBatchingDims := []
  startIndexMap := [0]
  indexVectorDim := 1
  sliceSizes := ![1]
  wf := wf

/-- The gather of nodes' rows at one integer per edge. -/
abbrev rowGather (wf : GatherDims.WF Snd Se1 Sed [1] [0] [] [0] [] 1 ![1, 64]) : GatherDims Snd Se1 Sed where
  offsetDims := [1]
  collapsedSliceDims := [0]
  operandBatchingDims := []
  startIndicesBatchingDims := []
  startIndexMap := [0]
  indexVectorDim := 1
  sliceSizes := ![1, 64]
  wf := wf

/-- The scatter-add of edge rows into node rows at one integer per edge. -/
abbrev rowScatter (wf : ScatterDims.WF Snd Se1 Sed [1] [0] [0] 1) : ScatterDims Snd Se1 Sed where
  updateWindowDims := [1]
  insertedWindowDims := [0]
  scatterDimsToOperandDims := [0]
  indexVectorDim := 1
  wf := wf

/-- Edge `e`'s place in the column of integers. -/
abbrev atEdge (e : Se.Idx) : Se1.Idx := fun a => match a with
  | ⟨0, _⟩ => ⟨(e 0).val, (e 0).isLt⟩
  | ⟨1, _⟩ => ⟨0, Nat.one_pos⟩

/-- The edge of an entry of an edge-by-feature array, in the column of integers. -/
abbrev edgeOf (j : Sed.Idx) : Se1.Idx := fun a => match a with
  | ⟨0, _⟩ => ⟨(j 0).val, (j 0).isLt⟩
  | ⟨1, _⟩ => ⟨0, Nat.one_pos⟩

/-- The node an integer names for a gather: read signed, clamped into the node range. -/
abbrev clampNode {w : Nat} (x : BitVec w) : Fin 100000 := ⟨min x.toInt.toNat 99999, by omega⟩

theorem nodeGather_operandIdx {w : Nat} (wf) (e : Se.Idx) (idx : IVec Se1 w) :
    (nodeGather wf).operandIdx e idx = fun a => match a with | ⟨0, _⟩ => clampNode (idx (atEdge e)) := by
  funext a
  obtain rfl : a = 0 := Subsingleton.elim _ _
  refine Fin.ext ?_
  show (nodeGather wf).start e idx 0 + (nodeGather wf).batchCoord e 0 + (nodeGather wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (nodeGather wf).startIndexMap from List.mem_singleton.mpr rfl)]
  have hsi : (nodeGather wf).siIdx e ⟨List.idxOf (0 : Fin 1) (nodeGather wf).startIndexMap,
      List.idxOf_lt_length_iff.2 (List.mem_singleton.mpr rfl)⟩ = atEdge e := by
    funext b; refine Fin.ext ?_
    match b with
    | ⟨0, _⟩ => rfl
    | ⟨1, _⟩ => rfl
  rw [hsi]
  rfl

theorem rowGather_operandIdx {w : Nat} (wf) (j : Sed.Idx) (idx : IVec Se1 w) :
    (rowGather wf).operandIdx j idx = fun a => match a with
      | ⟨0, _⟩ => clampNode (idx (edgeOf j))
      | ⟨1, _⟩ => ⟨(j 1).val, (j 1).isLt⟩ := by
  funext a
  refine Fin.ext ?_
  match a with
  | ⟨0, _⟩ =>
    show (rowGather wf).start j idx 0 + (rowGather wf).batchCoord j 0 + (rowGather wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather wf).startIndexMap from List.mem_singleton.mpr rfl)]
    have hsi : (rowGather wf).siIdx j ⟨List.idxOf (0 : Fin 2) (rowGather wf).startIndexMap,
        List.idxOf_lt_length_iff.2 (List.mem_singleton.mpr rfl)⟩ = edgeOf j := by
      funext b; refine Fin.ext ?_
      match b with
      | ⟨0, _⟩ => rfl
      | ⟨1, _⟩ => rfl
    rw [hsi]
    rfl
  | ⟨1, _⟩ =>
    show (rowGather wf).start j idx 1 + (rowGather wf).batchCoord j 1 + (rowGather wf).offCoord j 1 = (j 1).val
    have hs : (rowGather wf).start j idx 1 = 0 := by
      unfold GatherDims.start; rw [dif_neg (show (1 : Fin 2) ∉ ([0] : List (Fin 2)) from by decide)]
    rw [hs, GatherDims.batchCoord_eq_zero _ _ _ List.not_mem_nil]
    simp only [Nat.zero_add, Nat.add_zero]
    unfold GatherDims.offCoord
    rw [dif_pos (show (1 : Fin 2) ∈ Snd.kept (([0] : List (Fin 2)) ++ []) from by decide)]
    rfl

/-- Where row `j` of a scatter-add lands, when it lands at `i`: the edge's integer read signed IS the node's number, and
    the feature column is kept. -/
theorem rowScatter_resultIdx {w : Nat} (wf) (j : Sed.Idx) (idx : IVec Se1 w) (i : Snd.Idx)
    (h : (rowScatter wf).resultIdx? j idx = some i) :
    (idx (edgeOf j)).toInt = ((i 0).val : Int) ∧ (j 1).val = (i 1).val := by
  unfold ScatterDims.resultIdx? at h
  split at h
  · rename_i hall
    have hi := Option.some.inj h
    have hs0 : (rowScatter wf).start j idx 0 = (idx (edgeOf j)).toInt := by
      unfold ScatterDims.start
      rw [dif_pos (show (0 : Fin 2) ∈ (rowScatter wf).scatterDimsToOperandDims from List.mem_singleton.mpr rfl)]
      have hsi : (rowScatter wf).siIdx j ⟨List.idxOf (0 : Fin 2) (rowScatter wf).scatterDimsToOperandDims,
          List.idxOf_lt_length_iff.2 (List.mem_singleton.mpr rfl)⟩ = edgeOf j := by
        funext b; refine Fin.ext ?_
        match b with
        | ⟨0, _⟩ => rfl
        | ⟨1, _⟩ => rfl
      rw [hsi]
    have hw0 : (rowScatter wf).window j 0 = 0 := by
      unfold ScatterDims.window; rw [dif_neg (show (0 : Fin 2) ∉ Snd.kept ([0] : List (Fin 2)) from by decide)]
    have hs1 : (rowScatter wf).start j idx 1 = 0 := by
      unfold ScatterDims.start; rw [dif_neg (show (1 : Fin 2) ∉ ([0] : List (Fin 2)) from by decide)]
    have hw1 : (rowScatter wf).window j 1 = (j 1).val := by
      unfold ScatterDims.window; rw [dif_pos (show (1 : Fin 2) ∈ Snd.kept ([0] : List (Fin 2)) from by decide)]; rfl
    have h0 := hall 0
    have e0 : ((rowScatter wf).start j idx 0 + ((rowScatter wf).window j 0 : Int)).toNat = (i 0).val :=
      congrArg (fun f : Snd.Idx => (f 0).val) hi
    have e1 : ((rowScatter wf).start j idx 1 + ((rowScatter wf).window j 1 : Int)).toNat = (i 1).val :=
      congrArg (fun f : Snd.Idx => (f 1).val) hi
    rw [hs0, hw0] at h0 e0
    rw [hs1, hw1] at e1
    constructor
    · omega
    · omega
  · exact absurd h (by simp)

end Cert.EdgeIndex
-- ==== Proof.Ideal.Products.lean ====
/-
  Each layer's edge product as ONE array: after its 125 grid points the output array holds, at edge `e` and
  feature `d`, the gathered node row's entry `(e, d)` times the weight of edge `e` — whatever the contents the
  product started from. A grid point writes block `t` of that array (its arithmetic read at an entry; the three
  arrays' blocks at a point are the same 12800 rows), and the blocks cover the array.
-/
import proofs.«135441_j21414706938561_1_alg».proof.Proof.Ideal.Blocks
import Idealize.ShloMosaic.Lib.Pipeline.Value
import Idealize.ShloMosaic.Lib.ValueIdx
import proofs.«135441_j21414706938561_1_alg».proof.Proof.EdgeIndex

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz : (![0, 0] : Fin 2 → Nat) = fun _ => 0 := funext fun a => by fin_cases a <;> rfl

/-- The weight read for entry `y` of a block: the weight column's entry of the same row. -/
abbrev edgeInBlock (y : S12800x64.Idx) : S12800x1.Idx := fun a => match a with
  | ⟨0, _⟩ => ⟨(y 0).val, (y 0).isLt⟩
  | ⟨1, _⟩ => ⟨0, Nat.one_pos⟩

/-- The edge of entry `i` of the products' array, as an index of the weights' column. -/
abbrev edgeOf (i : S1600000x64.Idx) : S1600000x1.Idx := Cert.EdgeIndex.edgeOf i

/-- The products of gathered rows `g` and edge weights `v`: entry `(e, d)` is `g (e, d) · v e`. -/
abbrev edgeProduct (g : S1600000x64.Idx → Elt F .f32) (v : S1600000x1.Idx → Elt F .f32) : S1600000x64.Idx → Elt F .f32 :=
  fun i => FloatOps.mulf (g i) (v (edgeOf i))

section
variable (V : (c : Dev nD) → (b : Ref sig .tc) → Buf (Elt F) ((c : Thread nD τ).loc b))

/-! ## Layer 1 -/

/-- One grid point's arithmetic at an entry of its block: the gathered row's entry times the weight of its edge. -/
theorem pay0_apply (x0 : Vec F S12800x64 .f32) (x1 : Vec F S12800x1 .f32) (y : S12800x64.Idx) :
    k0_pay1 x0 x1 y = FloatOps.mulf (x0 y) (x1 (edgeInBlock y)) := by
  unfold k0_pay1
  show FloatOps.mulf (shapeCast S12800x64 x0 shapeCasts_S12800x64_S12800x64 y)
      (broadcastTo S12800x64 (shapeCast S12800x1 x1 shapeCasts_S12800x1_S12800x1) broadcasts_S12800x1_S12800x64 y) = _
  rw [shapeCast_self, shapeCast_self]
  refine congrArg (FloatOps.mulf (x0 y)) ?_
  exact broadcastTo_apply x1 broadcasts_S12800x1_S12800x64 y (edgeInBlock y) (fun a => match a with
    | ⟨0, _⟩ => by show (y 0).val = if (12800 : Nat) = 1 then 0 else (y 0).val; rw [if_neg (by decide)]
    | ⟨1, _⟩ => by show (0 : Nat) = if (1 : Nat) = 1 then 0 else (y 1).val; rw [if_pos rfl])

/-- Where the three arrays' blocks sit, decided over the 125 grid points: block `t` of each is rows
    `12800 t … 12800 t + 12799`, all of its columns. -/
theorem blocks0 : ∀ t : Fin cfg0.N, win0_0.index t (0 : Fin 2) = win0_2.index t (0 : Fin 2)
    ∧ win0_0.index t (1 : Fin 2) = 0 ∧ win0_1.index t (0 : Fin 2) = win0_2.index t (0 : Fin 2)
    ∧ win0_1.index t (1 : Fin 2) = 0 ∧ win0_2.index t (1 : Fin 2) = 0 ∧ win0_2.index t (0 : Fin 2) ≤ 124 :=
  (by decide +kernel : ∀ t : Fin grid0.N, _)

/-- Every one of the 125 row blocks is some grid point's. -/
theorem blocks0_onto : ∀ q : Fin 125, ∃ t : Fin cfg0.N, win0_2.index t = ![q.val, 0] :=
  (by decide +kernel : ∀ q : Fin 125, ∃ t : Fin grid0.N, win0_2.index t = ![q.val, 0])

/-- What grid point `t` writes back is block `t` of the whole array of products. -/
theorem flushed0_eq (c : Dev nD) (t : Fin cfg0.N) :
    (dat0 V c).flushed 2 t = ((cfg0.win 2).blk t).view.read (Elt F) (edgeProduct (V c main_v27) (V c main_v17)) := by
  show (cfg0.win 2).cut (grid0.coords t) ((dat0 V c).after 2 t) = _
  rw [after0_2]
  unfold out0_2
  rw [View.canon_unit_zero hz]
  simp only [View.ld_unit_zero (S := S12800x64) hz, View.ld_unit_zero (S := S12800x1) hz]
  obtain ⟨e0, e1, e2, e3, e4, e5⟩ := blocks0 t
  funext j
  show k0_pay1 (iblk0 V c 0 t) (iblk0 V c 1 t) j = _
  rw [pay0_apply]
  show FloatOps.mulf (V c main_v27 (((cfg0.win 0).blk t).view.emb j)) (V c main_v17 (((cfg0.win 1).blk t).view.emb (edgeInBlock j)))
    = FloatOps.mulf (V c main_v27 (((cfg0.win 2).blk t).view.emb j)) (V c main_v17 (edgeOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 12800 + 1 * (j 0).val = win0_2.index t (0 : Fin 2) * 12800 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (edgeInBlock j) = edgeOf (((cfg0.win 2).blk t).view.emb j) := by
    funext a; apply Fin.ext
    match a with
    | ⟨0, _⟩ => show win0_1.index t (0 : Fin 2) * 12800 + 1 * (j 0).val = win0_2.index t (0 : Fin 2) * 12800 + 1 * (j 0).val; omega
    | ⟨1, _⟩ => show win0_1.index t (1 : Fin 2) * 1 + 1 * 0 = 0; omega
  rw [h0, h1]

/-- An entry of the products' array lies in grid point `t`'s block iff its row does. -/
theorem mem_blk0 (t : Fin cfg0.N) (i : S1600000x64.Idx) :
    i ∈ ((cfg0.win 2).blk t).view.set ↔ ∀ a : Fin 2, win0_2.index t a * S12800x64.size a ≤ (i a).val ∧ (i a).val < win0_2.index t a * S12800x64.size a + S12800x64.size a := by
  show i ∈ ((View.whole main_v28).slice (win0_2.rect t)).set ↔ _
  rw [View.set_slice_whole, Rect.mem_set_unit]
  exact Iff.rfl

/-- The 125 blocks cover the array: entry `i` is in the block of its row's quotient by 12800. -/
theorem cover0 (i : S1600000x64.Idx) : ∃ t : Fin cfg0.N, (cfg0.win 2).flush t = true ∧ i ∈ ((cfg0.win 2).blk t).view.set := by
  have hi0 : (i 0).val < 1600000 := (i 0).isLt
  have hi1 : (i 1).val < 64 := (i 1).isLt
  obtain ⟨t, ht⟩ := blocks0_onto ⟨(i 0).val / 12800, by omega⟩
  have q0 : win0_2.index t (0 : Fin 2) = (i 0).val / 12800 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 12800 ≤ (i 0).val ∧ (i 0).val < win0_2.index t (0 : Fin 2) * 12800 + 12800; omega
  | ⟨1, _⟩ => show win0_2.index t (1 : Fin 2) * 64 ≤ (i 1).val ∧ (i 1).val < win0_2.index t (1 : Fin 2) * 64 + 64; omega

/-- After the 125 grid points the products' array is, entry by entry, the gathered row's entry times its edge's weight. -/
theorem product0 (c : Dev nD) : (dat0 V c).arrAt 2 cfg0.N = edgeProduct (V c main_v27) (V c main_v17) :=
  (dat0 V c).arrAt_eq_of_cover 2 (edgeProduct (V c main_v27) (V c main_v17)) (fun t _ => flushed0_eq V c t) (cover0)

/-! ## Layer 2 -/

/-- One grid point's arithmetic at an entry of its block: the gathered row's entry times the weight of its edge. -/
theorem pay1_apply (x0 : Vec F S12800x64 .f32) (x1 : Vec F S12800x1 .f32) (y : S12800x64.Idx) :
    k1_pay1 x0 x1 y = FloatOps.mulf (x0 y) (x1 (edgeInBlock y)) := by
  unfold k1_pay1
  show FloatOps.mulf (shapeCast S12800x64 x0 shapeCasts_S12800x64_S12800x64 y)
      (broadcastTo S12800x64 (shapeCast S12800x1 x1 shapeCasts_S12800x1_S12800x1) broadcasts_S12800x1_S12800x64 y) = _
  rw [shapeCast_self, shapeCast_self]
  refine congrArg (FloatOps.mulf (x0 y)) ?_
  exact broadcastTo_apply x1 broadcasts_S12800x1_S12800x64 y (edgeInBlock y) (fun a => match a with
    | ⟨0, _⟩ => by show (y 0).val = if (12800 : Nat) = 1 then 0 else (y 0).val; rw [if_neg (by decide)]
    | ⟨1, _⟩ => by show (0 : Nat) = if (1 : Nat) = 1 then 0 else (y 1).val; rw [if_pos rfl])

/-- Where the three arrays' blocks sit, decided over the 125 grid points: block `t` of each is rows
    `12800 t … 12800 t + 12799`, all of its columns. -/
theorem blocks1 : ∀ t : Fin cfg1.N, win1_0.index t (0 : Fin 2) = win1_2.index t (0 : Fin 2)
    ∧ win1_0.index t (1 : Fin 2) = 0 ∧ win1_1.index t (0 : Fin 2) = win1_2.index t (0 : Fin 2)
    ∧ win1_1.index t (1 : Fin 2) = 0 ∧ win1_2.index t (1 : Fin 2) = 0 ∧ win1_2.index t (0 : Fin 2) ≤ 124 :=
  (by decide +kernel : ∀ t : Fin grid1.N, _)

/-- Every one of the 125 row blocks is some grid point's. -/
theorem blocks1_onto : ∀ q : Fin 125, ∃ t : Fin cfg1.N, win1_2.index t = ![q.val, 0] :=
  (by decide +kernel : ∀ q : Fin 125, ∃ t : Fin grid1.N, win1_2.index t = ![q.val, 0])

/-- What grid point `t` writes back is block `t` of the whole array of products. -/
theorem flushed1_eq (c : Dev nD) (t : Fin cfg1.N) :
    (dat1 V c).flushed 2 t = ((cfg1.win 2).blk t).view.read (Elt F) (edgeProduct (V c main_v48) (V c main_v17)) := by
  show (cfg1.win 2).cut (grid1.coords t) ((dat1 V c).after 2 t) = _
  rw [after1_2]
  unfold out1_2
  rw [View.canon_unit_zero hz]
  simp only [View.ld_unit_zero (S := S12800x64) hz, View.ld_unit_zero (S := S12800x1) hz]
  obtain ⟨e0, e1, e2, e3, e4, e5⟩ := blocks1 t
  funext j
  show k1_pay1 (iblk1 V c 0 t) (iblk1 V c 1 t) j = _
  rw [pay1_apply]
  show FloatOps.mulf (V c main_v48 (((cfg1.win 0).blk t).view.emb j)) (V c main_v17 (((cfg1.win 1).blk t).view.emb (edgeInBlock j)))
    = FloatOps.mulf (V c main_v48 (((cfg1.win 2).blk t).view.emb j)) (V c main_v17 (edgeOf (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 12800 + 1 * (j 0).val = win1_2.index t (0 : Fin 2) * 12800 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (edgeInBlock j) = edgeOf (((cfg1.win 2).blk t).view.emb j) := by
    funext a; apply Fin.ext
    match a with
    | ⟨0, _⟩ => show win1_1.index t (0 : Fin 2) * 12800 + 1 * (j 0).val = win1_2.index t (0 : Fin 2) * 12800 + 1 * (j 0).val; omega
    | ⟨1, _⟩ => show win1_1.index t (1 : Fin 2) * 1 + 1 * 0 = 0; omega
  rw [h0, h1]

/-- An entry of the products' array lies in grid point `t`'s block iff its row does. -/
theorem mem_blk1 (t : Fin cfg1.N) (i : S1600000x64.Idx) :
    i ∈ ((cfg1.win 2).blk t).view.set ↔ ∀ a : Fin 2, win1_2.index t a * S12800x64.size a ≤ (i a).val ∧ (i a).val < win1_2.index t a * S12800x64.size a + S12800x64.size a := by
  show i ∈ ((View.whole main_v49).slice (win1_2.rect t)).set ↔ _
  rw [View.set_slice_whole, Rect.mem_set_unit]
  exact Iff.rfl

/-- The 125 blocks cover the array: entry `i` is in the block of its row's quotient by 12800. -/
theorem cover1 (i : S1600000x64.Idx) : ∃ t : Fin cfg1.N, (cfg1.win 2).flush t = true ∧ i ∈ ((cfg1.win 2).blk t).view.set := by
  have hi0 : (i 0).val < 1600000 := (i 0).isLt
  have hi1 : (i 1).val < 64 := (i 1).isLt
  obtain ⟨t, ht⟩ := blocks1_onto ⟨(i 0).val / 12800, by omega⟩
  have q0 : win1_2.index t (0 : Fin 2) = (i 0).val / 12800 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 12800 ≤ (i 0).val ∧ (i 0).val < win1_2.index t (0 : Fin 2) * 12800 + 12800; omega
  | ⟨1, _⟩ => show win1_2.index t (1 : Fin 2) * 64 ≤ (i 1).val ∧ (i 1).val < win1_2.index t (1 : Fin 2) * 64 + 64; omega

/-- After the 125 grid points the products' array is, entry by entry, the gathered row's entry times its edge's weight. -/
theorem product1 (c : Dev nD) : (dat1 V c).arrAt 2 cfg1.N = edgeProduct (V c main_v48) (V c main_v17) :=
  (dat1 V c).arrAt_eq_of_cover 2 (edgeProduct (V c main_v48) (V c main_v17)) (fun t _ => flushed1_eq V c t) (cover1)

/-! ## Layer 3 -/

/-- One grid point's arithmetic at an entry of its block: the gathered row's entry times the weight of its edge. -/
theorem pay2_apply (x0 : Vec F S12800x64 .f32) (x1 : Vec F S12800x1 .f32) (y : S12800x64.Idx) :
    k2_pay1 x0 x1 y = FloatOps.mulf (x0 y) (x1 (edgeInBlock y)) := by
  unfold k2_pay1
  show FloatOps.mulf (shapeCast S12800x64 x0 shapeCasts_S12800x64_S12800x64 y)
      (broadcastTo S12800x64 (shapeCast S12800x1 x1 shapeCasts_S12800x1_S12800x1) broadcasts_S12800x1_S12800x64 y) = _
  rw [shapeCast_self, shapeCast_self]
  refine congrArg (FloatOps.mulf (x0 y)) ?_
  exact broadcastTo_apply x1 broadcasts_S12800x1_S12800x64 y (edgeInBlock y) (fun a => match a with
    | ⟨0, _⟩ => by show (y 0).val = if (12800 : Nat) = 1 then 0 else (y 0).val; rw [if_neg (by decide)]
    | ⟨1, _⟩ => by show (0 : Nat) = if (1 : Nat) = 1 then 0 else (y 1).val; rw [if_pos rfl])

/-- Where the three arrays' blocks sit, decided over the 125 grid points: block `t` of each is rows
    `12800 t … 12800 t + 12799`, all of its columns. -/
theorem blocks2 : ∀ t : Fin cfg2.N, win2_0.index t (0 : Fin 2) = win2_2.index t (0 : Fin 2)
    ∧ win2_0.index t (1 : Fin 2) = 0 ∧ win2_1.index t (0 : Fin 2) = win2_2.index t (0 : Fin 2)
    ∧ win2_1.index t (1 : Fin 2) = 0 ∧ win2_2.index t (1 : Fin 2) = 0 ∧ win2_2.index t (0 : Fin 2) ≤ 124 :=
  (by decide +kernel : ∀ t : Fin grid2.N, _)

/-- Every one of the 125 row blocks is some grid point's. -/
theorem blocks2_onto : ∀ q : Fin 125, ∃ t : Fin cfg2.N, win2_2.index t = ![q.val, 0] :=
  (by decide +kernel : ∀ q : Fin 125, ∃ t : Fin grid2.N, win2_2.index t = ![q.val, 0])

/-- What grid point `t` writes back is block `t` of the whole array of products. -/
theorem flushed2_eq (c : Dev nD) (t : Fin cfg2.N) :
    (dat2 V c).flushed 2 t = ((cfg2.win 2).blk t).view.read (Elt F) (edgeProduct (V c main_v69) (V c main_v17)) := by
  show (cfg2.win 2).cut (grid2.coords t) ((dat2 V c).after 2 t) = _
  rw [after2_2]
  unfold out2_2
  rw [View.canon_unit_zero hz]
  simp only [View.ld_unit_zero (S := S12800x64) hz, View.ld_unit_zero (S := S12800x1) hz]
  obtain ⟨e0, e1, e2, e3, e4, e5⟩ := blocks2 t
  funext j
  show k2_pay1 (iblk2 V c 0 t) (iblk2 V c 1 t) j = _
  rw [pay2_apply]
  show FloatOps.mulf (V c main_v69 (((cfg2.win 0).blk t).view.emb j)) (V c main_v17 (((cfg2.win 1).blk t).view.emb (edgeInBlock j)))
    = FloatOps.mulf (V c main_v69 (((cfg2.win 2).blk t).view.emb j)) (V c main_v17 (edgeOf (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 12800 + 1 * (j 0).val = win2_2.index t (0 : Fin 2) * 12800 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (edgeInBlock j) = edgeOf (((cfg2.win 2).blk t).view.emb j) := by
    funext a; apply Fin.ext
    match a with
    | ⟨0, _⟩ => show win2_1.index t (0 : Fin 2) * 12800 + 1 * (j 0).val = win2_2.index t (0 : Fin 2) * 12800 + 1 * (j 0).val; omega
    | ⟨1, _⟩ => show win2_1.index t (1 : Fin 2) * 1 + 1 * 0 = 0; omega
  rw [h0, h1]

/-- An entry of the products' array lies in grid point `t`'s block iff its row does. -/
theorem mem_blk2 (t : Fin cfg2.N) (i : S1600000x64.Idx) :
    i ∈ ((cfg2.win 2).blk t).view.set ↔ ∀ a : Fin 2, win2_2.index t a * S12800x64.size a ≤ (i a).val ∧ (i a).val < win2_2.index t a * S12800x64.size a + S12800x64.size a := by
  show i ∈ ((View.whole main_v70).slice (win2_2.rect t)).set ↔ _
  rw [View.set_slice_whole, Rect.mem_set_unit]
  exact Iff.rfl

/-- The 125 blocks cover the array: entry `i` is in the block of its row's quotient by 12800. -/
theorem cover2 (i : S1600000x64.Idx) : ∃ t : Fin cfg2.N, (cfg2.win 2).flush t = true ∧ i ∈ ((cfg2.win 2).blk t).view.set := by
  have hi0 : (i 0).val < 1600000 := (i 0).isLt
  have hi1 : (i 1).val < 64 := (i 1).isLt
  obtain ⟨t, ht⟩ := blocks2_onto ⟨(i 0).val / 12800, by omega⟩
  have q0 : win2_2.index t (0 : Fin 2) = (i 0).val / 12800 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 12800 ≤ (i 0).val ∧ (i 0).val < win2_2.index t (0 : Fin 2) * 12800 + 12800; omega
  | ⟨1, _⟩ => show win2_2.index t (1 : Fin 2) * 64 ≤ (i 1).val ∧ (i 1).val < win2_2.index t (1 : Fin 2) * 64 + 64; omega

/-- After the 125 grid points the products' array is, entry by entry, the gathered row's entry times its edge's weight. -/
theorem product2 (c : Dev nD) : (dat2 V c).arrAt 2 cfg2.N = edgeProduct (V c main_v69) (V c main_v17) :=
  (dat2 V c).arrAt_eq_of_cover 2 (edgeProduct (V c main_v69) (V c main_v17)) (fun t _ => flushed2_eq V c t) (cover2)

end

end Cert.KernelIdeal.Layers

end
-- ==== Proof.RealSums.lean ====
/-
  Sums of products of FINITE extended reals. On the extended reals a factor does not move across a sum in general
  (`⊤ + ⊥ = ⊥`), but it does when every number involved is a real: the two sides are then the images of two real
  expressions that are equal in any commutative ring. Stated here: what "finite" means, that it is kept by products and finite sums, and the
  one identity the three message-passing layers need — a factor `D` of the node taken out of its sum over edges.
-/
import Mathlib.Data.EReal.Operations
import Mathlib.Algebra.BigOperators.Ring.Finset
import Mathlib.Tactic.Ring

namespace Cert.RealSums

open scoped BigOperators

/-- An extended real that is a real number. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.add {x y : EReal} (hx : Fin' x) (hy : Fin' y) : Fin' (x + y) := by
  obtain ⟨a, rfl⟩ := hx; obtain ⟨b, rfl⟩ := hy; exact ⟨a + b, (EReal.coe_add a b).symm⟩

/-- The image of a finite real sum is the sum of the images. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem Fin'.sum {ι : Type} (s : Finset ι) (f : ι → EReal) (hf : ∀ j ∈ s, Fin' (f j)) : Fin' (∑ j ∈ s, f j) := by
  classical
  induction s using Finset.induction_on with
  | empty => simpa using Fin'.zero
  | insert a s ha ih =>
    rw [Finset.sum_insert ha]
    exact (hf a (Finset.mem_insert_self a s)).add (ih fun j hj => hf j (Finset.mem_insert_of_mem hj))

/-- ONE LAYER AT ONE NODE ENTRY. With `a` the layer's coefficient, `D` the node's inverse square-root degree, and over the
    edges `j` that end at the node: `h j` the source node's feature, `dC j` the source node's inverse square-root degree,
    `w j` the edge weight and `dR j` the inverse square-root degree gathered at the edge's own end (which IS `D` on those
    edges): scaling the sources before the sum and the node after it equals weighting each edge by `dR · w · dC`. All finite. -/
theorem node_entry {ι : Type} (s : Finset ι) (a D z : EReal) (h dC w dR : ι → EReal)
    (hz : z = 0) (ha : Fin' a) (hD : Fin' D) (hh : ∀ j, Fin' (h j)) (hdC : ∀ j, Fin' (dC j)) (hw : ∀ j, Fin' (w j))
    (hdR : ∀ j ∈ s, dR j = D) :
    (a * D) * (z + ∑ j ∈ s, (h j * dC j) * w j) = a * (z + ∑ j ∈ s, ((dR j * w j) * dC j) * h j) := by
  obtain ⟨a', rfl⟩ := ha
  obtain ⟨D', rfl⟩ := hD
  choose h' hh' using hh
  choose c' hc' using hdC
  choose w' hw' using hw
  subst hz
  rw [zero_add, zero_add]
  have e1 : ∑ j ∈ s, (h j * dC j) * w j = ((∑ j ∈ s, (h' j * c' j) * w' j : ℝ) : EReal) := by
    rw [coe_sum]; refine Finset.sum_congr rfl fun j _ => ?_
    rw [hh' j, hc' j, hw' j, EReal.coe_mul, EReal.coe_mul]
  have e2 : ∑ j ∈ s, ((dR j * w j) * dC j) * h j = ((∑ j ∈ s, ((D' * w' j) * c' j) * h' j : ℝ) : EReal) := by
    rw [coe_sum]; refine Finset.sum_congr rfl fun j hj => ?_
    rw [hdR j hj, hh' j, hc' j, hw' j, EReal.coe_mul, EReal.coe_mul, EReal.coe_mul]
  rw [e1, e2, ← EReal.coe_mul, ← EReal.coe_mul, ← EReal.coe_mul]
  refine congrArg _ ?_
  rw [mul_assoc, Finset.mul_sum, Finset.mul_sum, Finset.mul_sum]
  refine Finset.sum_congr rfl fun j _ => ?_
  ring

/-- The same identity with the two sums' terms named: `f` the scaled form's, `g` the weighted form's. -/
theorem node_entry' {ι : Type} (s : Finset ι) (a D z : EReal) (f g h dC w dR : ι → EReal)
    (hf : ∀ j ∈ s, f j = (h j * dC j) * w j) (hg : ∀ j ∈ s, g j = ((dR j * w j) * dC j) * h j)
    (hz : z = 0) (ha : Fin' a) (hD : Fin' D) (hh : ∀ j, Fin' (h j)) (hdC : ∀ j, Fin' (dC j)) (hw : ∀ j, Fin' (w j))
    (hdR : ∀ j ∈ s, dR j = D) :
    (a * D) * (z + ∑ j ∈ s, f j) = a * (z + ∑ j ∈ s, g j) := by
  rw [Finset.sum_congr rfl hf, Finset.sum_congr rfl hg]
  exact node_entry s a D z h dC w dR hz ha hD hh hdC hw hdR

end Cert.RealSums
-- ==== Proof.Layer.lean ====
/-
  ONE MESSAGE-PASSING LAYER, two ways, as whole arrays at the ideal values. With `d` the nodes' inverse square-root
  degrees, `a` the layer's coefficient, `w` the edge weights, `h` the previous features, an edge `e` going from node
  `col e` to node `row e`:
    the scaled form   `(a · d n) · Σ_{e → n} (h (col e) · d (col e)) · w e`      (sources scaled before, the node after)
    the weighted form `a · Σ_{e → n} ((d (row e) · w e) · d (col e)) · h (col e)`   (each edge weighted by both ends).
  They are equal when every number is finite: on the edges that reach node `n` the row end's degree factor is `d n`, a
  constant of the sum, and a finite factor moves across a finite sum of finite terms (RealSums). The sums are the
  scatter-add's, the sources the gather's (EdgeIndex says which entry each reads).
-/
import proofs.«135441_j21414706938561_1_alg».proof.Proof.RealSums
import proofs.«135441_j21414706938561_1_alg».proof.Proof.EdgeIndex
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value

noncomputable section

namespace Cert.Layer

open Idealize.ShloMosaic Idealize.ShloMosaic.ValueIdx Cert.RealSums Cert.EdgeIndex
open scoped BigOperators

abbrev S0 : Shape := ⟨0, ![]⟩
abbrev Sn1 : Shape := ⟨2, ![100000, 1]⟩

/-! ## The layout operations read at an index -/

section Reads
variable {α : Type}

/-- The node of an entry of a node-by-feature array. -/
abbrev nodeOf (i : Snd.Idx) : Sn.Idx := fun a => match a with | ⟨0, _⟩ => ⟨(i 0).val, (i 0).isLt⟩
/-- The edge of an entry of an edge-by-feature array. -/
abbrev edgeNo (j : Sed.Idx) : Se.Idx := fun a => match a with | ⟨0, _⟩ => ⟨(j 0).val, (j 0).isLt⟩
abbrev colNode (j : Sn1.Idx) : Sn.Idx := fun a => match a with | ⟨0, _⟩ => ⟨(j 0).val, (j 0).isLt⟩
abbrev colOfEntry (i : Snd.Idx) : Sn1.Idx := fun a => match a with
  | ⟨0, _⟩ => ⟨(i 0).val, (i 0).isLt⟩
  | ⟨1, _⟩ => ⟨0, Nat.one_pos⟩
abbrev colEdge (j : Se1.Idx) : Se.Idx := fun a => match a with | ⟨0, _⟩ => ⟨(j 0).val, (j 0).isLt⟩

/-- A scalar spread over any shape. -/
theorem spread_scalar {T : Shape} (h : S0.BroadcastsInDim T (![] : Fin 0 → Fin T.rank)) (x : S0.Idx → α) (i : T.Idx) :
    broadcastInDim T ![] h x i = x (fun a => a.elim0) :=
  broadcastInDim_apply _ h x i (fun a => a.elim0) (fun a => a.elim0)

/-- A vector over the nodes as a column. -/
theorem col_nodes (h : Sn.BroadcastsInDim Sn1 (![0] : Fin 1 → Fin Sn1.rank)) (x : Sn.Idx → α) (j : Sn1.Idx) :
    broadcastInDim Sn1 ![0] h x j = x (colNode j) :=
  broadcastInDim_apply _ h x j (colNode j) (fun a => match a with
    | ⟨0, _⟩ => by show (j 0).val = if (100000 : Nat) = 1 then 0 else (j 0).val; rw [if_neg (by decide)])

/-- A column over the nodes repeated along the 64 features. -/
theorem rows_nodes (h : Sn1.BroadcastsInDim Snd (![0, 1] : Fin 2 → Fin Snd.rank)) (x : Sn1.Idx → α) (i : Snd.Idx) :
    broadcastInDim Snd ![0, 1] h x i = x (colOfEntry i) :=
  broadcastInDim_apply _ h x i (colOfEntry i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A vector over the edges as a column. -/
theorem col_edges (h : Se.BroadcastsInDim Se1 (![0] : Fin 1 → Fin Se1.rank)) (x : Se.Idx → α) (j : Se1.Idx) :
    broadcastInDim Se1 ![0] h x j = x (colEdge j) :=
  broadcastInDim_apply _ h x j (colEdge j) (fun a => match a with
    | ⟨0, _⟩ => by show (j 0).val = if (1600000 : Nat) = 1 then 0 else (j 0).val; rw [if_neg (by decide)])

/-- A column over the edges repeated along the 64 features. -/
theorem rows_edges (h : Se1.BroadcastsInDim Sed (![0, 1] : Fin 2 → Fin Sed.rank)) (x : Se1.Idx → α) (j : Sed.Idx) :
    broadcastInDim Sed ![0, 1] h x j = x (edgeOf j) :=
  broadcastInDim_apply _ h x j (edgeOf j) (fun a => match a with
    | ⟨0, _⟩ => by show (j 0).val = if (1600000 : Nat) = 1 then 0 else (j 0).val; rw [if_neg (by decide)]
    | ⟨1, _⟩ => by show 0 = if (1 : Nat) = 1 then 0 else (j 1).val; rw [if_pos rfl])

/-- A vector over the edges re-laid as a column. -/
theorem relaid_edges (h : Se.ShapeCasts Se1) (x : Se.Idx → α) (j : Se1.Idx) : shapeCast Se1 x h j = x (colEdge j) :=
  shapeCast_apply x h j (colEdge j)
    (by rewrite [Shape.rowMajor_val_two, Shape.rowMajor_val_one]
        have h0 : (j 0).val < 1600000 := (j 0).isLt
        have h1 : (j 1).val < 1 := (j 1).isLt
        show (j 0).val = (j 0).val * 1 + (j 1).val; omega)

end Reads

/-! ## The two forms of a layer -/

section Forms
variable (hsn : S0.BroadcastsInDim Sn1 (![] : Fin 0 → Fin Sn1.rank)) (hnc : Sn.BroadcastsInDim Sn1 (![0] : Fin 1 → Fin Sn1.rank))
  (hnr : Sn1.BroadcastsInDim Snd (![0, 1] : Fin 2 → Fin Snd.rank)) (hsd : S0.BroadcastsInDim Snd (![] : Fin 0 → Fin Snd.rank))
  (hec : Se.BroadcastsInDim Se1 (![0] : Fin 1 → Fin Se1.rank)) (her : Se1.BroadcastsInDim Sed (![0, 1] : Fin 2 → Fin Sed.rank))
  (hre : Se.ShapeCasts Se1)
  (wfg : GatherDims.WF Sn Se1 Se [] [0] [] [0] [] 1 ![1]) (wfG : GatherDims.WF Snd Se1 Sed [1] [0] [] [0] [] 1 ![1, 64])
  (wfS : ScatterDims.WF Snd Se1 Sed [1] [0] [0] 1)

/-- THE SCALED FORM: sources scaled by their degree factor, gathered along the edges, multiplied by the edge weights,
    summed into the nodes, the node scaled by the coefficient times its own degree factor. -/
def scaled {F : FTy → Type} [FloatOps F] (a : FVec F S0 .f32) (d : FVec F Sn .f32) (rowI colN : IVec Se 32) (w : FVec F Se .f32)
    (h : FVec F Snd .f32) : FVec F Snd .f32 :=
  mulf (broadcastInDim Snd ![0, 1] hnr (mulf (broadcastInDim Sn1 ![] hsn a) (broadcastInDim Sn1 ![0] hnc d)))
    (Host.scatterAdd (F := F) (rowScatter wfS) (broadcastInDim Snd ![] hsd (constant (F := F) S0 .f32 0x00000000#32))
      (broadcastInDim Se1 ![0] hec rowI)
      (fun j => FloatOps.mulf
        (Host.gather (rowGather wfG) (mulf h (broadcastInDim Snd ![0, 1] hnr (broadcastInDim Sn1 ![0] hnc d))) (broadcastInDim Se1 ![0] hec colN) j)
        (shapeCast Se1 w hre (edgeOf j))))

/-- THE WEIGHTED FORM: each edge weighted by its two ends' degree factors and its own weight, times the gathered source,
    summed into the nodes, times the coefficient. -/
def weighted {F : FTy → Type} [FloatOps F] (a : FVec F S0 .f32) (d : FVec F Sn .f32) (rowI rowN colN : IVec Se 32) (w : FVec F Se .f32)
    (h : FVec F Snd .f32) : FVec F Snd .f32 :=
  mulf (broadcastInDim Snd ![] hsd a)
    (Host.scatterAdd (F := F) (rowScatter wfS) (broadcastInDim Snd ![] hsd (constant (F := F) S0 .f32 0x00000000#32))
      (broadcastInDim Se1 ![0] hec rowI)
      (mulf (broadcastInDim Sed ![0, 1] her (broadcastInDim Se1 ![0] hec
          (mulf (mulf (Host.gather (nodeGather wfg) d (broadcastInDim Se1 ![0] hec rowN)) w)
            (Host.gather (nodeGather wfg) d (broadcastInDim Se1 ![0] hec colN)))))
        (Host.gather (rowGather wfG) h (broadcastInDim Se1 ![0] hec colN))))

/-- The source entry of edge-entry `j`: the node its column integer names, same feature. -/
def src (colN : IVec Se 32) (j : Sed.Idx) : Snd.Idx := (rowGather wfG).operandIdx j (broadcastInDim Se1 ![0] hec colN)

theorem nodeOf_src (colN : IVec Se 32) (j : Sed.Idx) :
    nodeOf (src hec wfG colN j) = (nodeGather wfg).operandIdx (edgeNo j) (broadcastInDim Se1 ![0] hec colN) := by
  unfold src
  rw [rowGather_operandIdx, nodeGather_operandIdx]
  funext a
  obtain rfl : a = 0 := Subsingleton.elim _ _
  rfl

theorem zero_entry (i : Snd.Idx) :
    broadcastInDim Snd ![] hsd (constant (F := Ideal) S0 .f32 0x00000000#32) i = (0 : EReal) := by
  rw [spread_scalar]; exact Ideal.ofBits_zero_f32

/-- On an edge that reaches node entry `i`, the row end's gathered degree factor is node `i`'s. -/
theorem row_end (d : FVec Ideal Sn .f32) (rowI rowN : IVec Se 32) (hrow : ∀ e : Se.Idx, 0 ≤ (rowI e).toInt → rowN e = rowI e)
    (i : Snd.Idx) (j : Sed.Idx) (hj : (rowScatter wfS).resultIdx? j (broadcastInDim Se1 ![0] hec rowI) = some i) :
    Host.gather (nodeGather wfg) d (broadcastInDim Se1 ![0] hec rowN) (edgeNo j) = d (nodeOf i) := by
  obtain ⟨h0, -⟩ := rowScatter_resultIdx wfS j _ i hj
  rw [col_edges] at h0
  have he : colEdge (edgeOf j) = edgeNo j := by
    funext a; obtain rfl : a = 0 := Subsingleton.elim _ _; rfl
  rw [he] at h0
  have hn : rowN (edgeNo j) = rowI (edgeNo j) := hrow _ (by rw [h0]; exact Int.natCast_nonneg _)
  show d ((nodeGather wfg).operandIdx (edgeNo j) (broadcastInDim Se1 ![0] hec rowN)) = _
  rw [nodeGather_operandIdx]
  refine congrArg d ?_
  funext a
  obtain rfl : a = 0 := Subsingleton.elim _ _
  refine Fin.ext ?_
  show min ((broadcastInDim Se1 ![0] hec rowN) (atEdge (edgeNo j))).toInt.toNat 99999 = (i 0).val
  rw [col_edges]
  have he' : colEdge (atEdge (edgeNo j)) = edgeNo j := by
    funext a; obtain rfl : a = 0 := Subsingleton.elim _ _; rfl
  rw [he', hn, h0]
  have hi : (i 0).val < 100000 := (i 0).isLt
  omega

theorem colNode_colOfEntry (s : Snd.Idx) : colNode (colOfEntry s) = nodeOf s := by
  funext a; obtain rfl : a = 0 := Subsingleton.elim _ _; rfl
theorem colEdge_edgeOf (j : Sed.Idx) : colEdge (edgeOf j) = edgeNo j := by
  funext a; obtain rfl : a = 0 := Subsingleton.elim _ _; rfl

/-- A scatter-add at the ideal values, at an entry: what was there plus the sum of the rows that land on it. -/
theorem scatter_entry (z : FVec Ideal Snd .f32) (idx : IVec Se1 32) (upd : FVec Ideal Sed .f32) (i : Snd.Idx) :
    Host.scatterAdd (F := Ideal) (rowScatter wfS) z idx upd i
      = z i + ∑ j ∈ Finset.univ.filter (fun j : Sed.Idx => (rowScatter wfS).resultIdx? j idx = some i), upd j := rfl

/-- The scaled form at an entry. -/
theorem scaled_entry (a : FVec Ideal S0 .f32) (d : FVec Ideal Sn .f32) (rowI colN : IVec Se 32) (w : FVec Ideal Se .f32)
    (h : FVec Ideal Snd .f32) (i : Snd.Idx) :
    scaled hsn hnc hnr hsd hec hre wfG wfS a d rowI colN w h i
      = (a (fun x => x.elim0) * d (nodeOf i)) * (broadcastInDim Snd ![] hsd (constant (F := Ideal) S0 .f32 0x00000000#32) i
          + ∑ j ∈ Finset.univ.filter (fun j : Sed.Idx => (rowScatter wfS).resultIdx? j (broadcastInDim Se1 ![0] hec rowI) = some i),
              (h (src hec wfG colN j) * d (nodeOf (src hec wfG colN j))) * w (edgeNo j)) := by
  unfold scaled
  rw [mulf_apply, scatter_entry, rows_nodes, mulf_apply, spread_scalar, col_nodes, colNode_colOfEntry]
  refine congrArg (fun t => (a (fun x => x.elim0) * d (nodeOf i)) * (_ + t)) (Finset.sum_congr rfl fun j _ => ?_)
  show (mulf h (broadcastInDim Snd ![0, 1] hnr (broadcastInDim Sn1 ![0] hnc d)) (src hec wfG colN j)) * (shapeCast Se1 w hre (edgeOf j)) = _
  rw [mulf_apply, rows_nodes, col_nodes, relaid_edges, colNode_colOfEntry, colEdge_edgeOf]

/-- The weighted form at an entry. -/
theorem weighted_entry (a : FVec Ideal S0 .f32) (d : FVec Ideal Sn .f32) (rowI rowN colN : IVec Se 32) (w : FVec Ideal Se .f32)
    (h : FVec Ideal Snd .f32) (i : Snd.Idx) :
    weighted hsd hec her wfg wfG wfS a d rowI rowN colN w h i
      = a (fun x => x.elim0) * (broadcastInDim Snd ![] hsd (constant (F := Ideal) S0 .f32 0x00000000#32) i
          + ∑ j ∈ Finset.univ.filter (fun j : Sed.Idx => (rowScatter wfS).resultIdx? j (broadcastInDim Se1 ![0] hec rowI) = some i),
              ((Host.gather (nodeGather wfg) d (broadcastInDim Se1 ![0] hec rowN) (edgeNo j) * w (edgeNo j))
                * d (nodeOf (src hec wfG colN j))) * h (src hec wfG colN j)) := by
  unfold weighted
  rw [mulf_apply, scatter_entry, spread_scalar]
  refine congrArg (fun t => a (fun x => x.elim0) * (_ + t)) (Finset.sum_congr rfl fun j _ => ?_)
  rw [mulf_apply, rows_edges, col_edges, colEdge_edgeOf, mulf_apply, mulf_apply, nodeOf_src hec wfg wfG colN j]
  rfl

end Forms

end Cert.Layer

end
-- ==== Proof.Ideal.Chain.lean ====
/-
  THE KERNEL'S PROGRAM READ AS ARRAYS, at any reading of the float operations. Walking the buffer contents from the launch through the eleven
  stretches: the degrees' inverse square roots `d`, the coefficients, the edge rows and normalised columns are the host
  operations' terms of the arguments; each layer's edge product is the array of products of the gathered scaled
  features and the weights; the host operations after it sum the products into the nodes and scale them. So the
  three feature arrays are three applications of the scaled form of a layer, each to the one before, and the result is
  the four arrays stacked.
-/
import proofs.«135441_j21414706938561_1_alg».proof.Proof.Ideal.Contents
import proofs.«135441_j21414706938561_1_alg».proof.Proof.Ideal.Products
import proofs.«135441_j21414706938561_1_alg».proof.Proof.Gen.KernelIdeal.Regions
import proofs.«135441_j21414706938561_1_alg».proof.Proof.Gen.ReferenceIdeal.Read
import proofs.«135441_j21414706938561_1_alg».proof.Proof.Layer
import Idealize.ShloMosaic.Lib.StableHlo.Run

set_option maxRecDepth 16384

noncomputable section

namespace Cert.KernelIdeal.Layers

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-- The four argument arrays on core `c`. -/
abbrev arg0 : FVec F S100000x64 .f32 := m ((c : Thread nD τ).loc main_arg0)
abbrev arg1 : IVec S2x1600000 32 := m ((c : Thread nD τ).loc main_arg1)
abbrev arg2 : FVec F S1600000 .f32 := m ((c : Thread nD τ).loc main_arg2)
abbrev arg3 : FVec F S4 .f32 := m ((c : Thread nD τ).loc main_arg3)

/-- The nodes' inverse square-root degrees, the edges' row ends and normalised column ends, as terms of the arguments. -/
abbrev dinv := Cert.ReferenceIdeal.Read.val_main_v13 (F := F) (arg1 m c) (arg2 m c)
abbrev rowEnd := Cert.ReferenceIdeal.Read.val_main_v1 (F := F) (arg1 m c)
abbrev colEnd := Cert.ReferenceIdeal.Read.val_main_v40 (F := F) (arg1 m c)
/-- The scaled form of a layer over this program's shapes. -/
abbrev layer (a : FVec F S_ .f32) (h : FVec F S100000x64 .f32) : FVec F S100000x64 .f32 :=
  Cert.Layer.scaled (F := F) bcast_S_S100000x1 bcast_S100000_S100000x1_0 bcast_S100000x1_S100000x64_0_1 bcast_S_S100000x64 bcast_S1600000_S1600000x1_0 shapeCasts_S1600000_S1600000x1 gather_S100000x64_S1600000x1_S1600000x64_1_0_n_n_0_1_164_wf scatter_S100000x64_S1600000x1_S1600000x64_1_0_0_1_wf a (dinv m c) (rowEnd m c) (colEnd m c) (arg2 m c) h
/-- The three feature arrays. -/
abbrev feat1 := layer m c (Cert.ReferenceIdeal.Read.val_main_v34 (F := F) (arg3 m c)) (arg0 m c)
abbrev feat2 := layer m c (Cert.ReferenceIdeal.Read.val_main_v51 (F := F) (arg3 m c)) (feat1 m c)
abbrev feat3 := layer m c (Cert.ReferenceIdeal.Read.val_main_v68 (F := F) (arg3 m c)) (feat2 m c)

/-! ## Before the first edge product: the degrees, their inverse square roots, the coefficients, the first gather -/

theorem w1_v1 : W1 m ρ c (Proc.devRef .tc main_v1) = rowEnd m c := by after_results <;> rfl
theorem w1_v3 : W1 m ρ c (Proc.devRef .tc main_v3) = Cert.ReferenceIdeal.Read.val_main_v3 (F := F) (arg1 m c) := by after_results <;> rfl
theorem w1_v6 : W1 m ρ c (Proc.devRef .tc main_v6) = Cert.ReferenceIdeal.Read.val_main_v6 (F := F) (arg1 m c) (arg2 m c) := by after_results <;> rfl
theorem w1_v8 : W1 m ρ c (Proc.devRef .tc main_v8) = Cert.ReferenceIdeal.Read.val_main_v8 (F := F) (arg1 m c) (arg2 m c) := by after_results <;> rfl
theorem w1_cst_1 : W1 m ρ c (Proc.devRef .tc main_cst_1) = Cert.ReferenceIdeal.Read.val_main_cst_1 (F := F) := by after_results <;> rfl

theorem w2_v9 : W2 m ρ c (Proc.devRef .tc main_v9) = Cert.ReferenceIdeal.Read.val_main_v9 (F := F) (arg1 m c) (arg2 m c) := by
  have e0 := w1_v8 m ρ c
  have e1 := w1_v6 m ρ c
  have e2 := w1_cst_1 m ρ c
  show StableHlo.after hostOps0_1 (W1 m ρ c) (Proc.devRef .tc main_v9) = _
  generalize W1 m ρ c = V at e0 e1 e2 ⊢
  after_results
  rw [e0, e1, e2]
  rfl

theorem w2_v6 : W2 m ρ c (Proc.devRef .tc main_v6) = Cert.ReferenceIdeal.Read.val_main_v6 (F := F) (arg1 m c) (arg2 m c) := by after_results <;> rfl

theorem w3_v11 : W3 m ρ c (Proc.devRef .tc main_v11) = Cert.ReferenceIdeal.Read.val_main_v11 (F := F) (arg1 m c) (arg2 m c) := by
  have e0 := w2_v6 m ρ c
  show StableHlo.after hostOps0_2 (W2 m ρ c) (Proc.devRef .tc main_v11) = _
  generalize W2 m ρ c = V at e0 ⊢
  after_results
  rw [e0]
  try rfl

theorem w3_v12 : W3 m ρ c (Proc.devRef .tc main_v12) = Cert.ReferenceIdeal.Read.val_main_v12 (F := F) (arg1 m c) (arg2 m c) := by
  have e0 := w2_v9 m ρ c
  show StableHlo.after hostOps0_2 (W2 m ρ c) (Proc.devRef .tc main_v12) = _
  generalize W2 m ρ c = V at e0 ⊢
  after_results
  rw [e0]
  try rfl

theorem w3_cst_3 : W3 m ρ c (Proc.devRef .tc main_cst_3) = Cert.ReferenceIdeal.Read.val_main_cst_3 (F := F) := by after_results <;> rfl

theorem w4_v13 : W4 m ρ c (Proc.devRef .tc main_v13) = dinv m c := by
  have e0 := w3_v11 m ρ c
  have e1 := w3_v12 m ρ c
  have e2 := w3_cst_3 m ρ c
  show StableHlo.after hostOps0_3 (W3 m ρ c) (Proc.devRef .tc main_v13) = _
  generalize W3 m ρ c = V at e0 e1 e2 ⊢
  after_results
  rw [e0, e1, e2]
  rfl

theorem w4_v3 : W4 m ρ c (Proc.devRef .tc main_v3) = Cert.ReferenceIdeal.Read.val_main_v3 (F := F) (arg1 m c) := by after_results <;> rfl
theorem w4_arg0 : W4 m ρ c (Proc.devRef .tc main_arg0) = arg0 m c := by after_results <;> rfl

theorem w5_v1 : W5 m ρ c (Proc.devRef .tc main_v1) = rowEnd m c := by after_results <;> rfl
theorem w5_v16 : W5 m ρ c (Proc.devRef .tc main_v16) = Cert.ReferenceIdeal.Read.val_main_v32 (F := F) (arg3 m c) := by after_results <;> rfl
theorem w5_v17 : W5 m ρ c (Proc.devRef .tc main_v17) = shapeCast S1600000x1 (arg2 m c) shapeCasts_S1600000_S1600000x1 := by after_results <;> rfl
theorem w5_v13 : W5 m ρ c (Proc.devRef .tc main_v13) = dinv m c := by
  have e0 := w4_v13 m ρ c
  show StableHlo.after hostOps0_4 (W4 m ρ c) (Proc.devRef .tc main_v13) = _
  generalize W4 m ρ c = V at e0 ⊢
  after_results
  rw [e0]
  try rfl

set_option maxHeartbeats 4000000 in
theorem w5_v27 : W5 m ρ c (Proc.devRef .tc main_v27) = Host.gather gather_S100000x64_S1600000x1_S1600000x64_1_0_n_n_0_1_164
        (mulf (arg0 m c) (broadcastInDim S100000x64 ![0, 1] bcast_S100000x1_S100000x64_0_1 (broadcastInDim S100000x1 ![0] bcast_S100000_S100000x1_0 (dinv m c))))
        (broadcastInDim S1600000x1 ![0] bcast_S1600000_S1600000x1_0 (colEnd m c)) := by
  have e0 := w4_arg0 m ρ c
  have e1 := w4_v13 m ρ c
  have e2 := w4_v3 m ρ c
  show StableHlo.after hostOps0_4 (W4 m ρ c) (Proc.devRef .tc main_v27) = _
  generalize W4 m ρ c = V at e0 e1 e2 ⊢
  after_results
  rw [e0, e1, e2]
  rfl

theorem w5_v3 : W5 m ρ c (Proc.devRef .tc main_v3) = Cert.ReferenceIdeal.Read.val_main_v3 (F := F) (arg1 m c) := by after_results <;> rfl
theorem w5_arg0 : W5 m ρ c (Proc.devRef .tc main_arg0) = arg0 m c := by after_results <;> rfl

/-! ## What a host stretch does not write it keeps -/

theorem keep7 (b : Ref sig .tc) (h : b ∉ hostOps1_W) : W7 m ρ c (Proc.devRef .tc b) = W6 m ρ c (Proc.devRef .tc b) :=
  StableHlo.after_of_writes_sub hostOps1 _ hostOps1_writes h
theorem keep9 (b : Ref sig .tc) (h : b ∉ hostOps2_W) : W9 m ρ c (Proc.devRef .tc b) = W8 m ρ c (Proc.devRef .tc b) :=
  StableHlo.after_of_writes_sub hostOps2 _ hostOps2_writes h
theorem keep11 (b : Ref sig .tc) (h : b ∉ hostOps3_W) : W11 m ρ c (Proc.devRef .tc b) = W10 m ρ c (Proc.devRef .tc b) :=
  StableHlo.after_of_writes_sub hostOps3 _ hostOps3_writes h

/-! ## Layer 1 -/

theorem w6_v28 : W6 m ρ c (Proc.devRef .tc main_v28) = edgeProduct (Host.gather gather_S100000x64_S1600000x1_S1600000x64_1_0_n_n_0_1_164 (mulf (arg0 m c) (broadcastInDim S100000x64 ![0, 1] bcast_S100000x1_S100000x64_0_1 (broadcastInDim S100000x1 ![0] bcast_S100000_S100000x1_0 (dinv m c)))) (broadcastInDim S1600000x1 ![0] bcast_S1600000_S1600000x1_0 (colEnd m c))) (shapeCast S1600000x1 (arg2 m c) shapeCasts_S1600000_S1600000x1) := by
  refine ((W6_arr m ρ c 2).trans (product0 (V5 m ρ) c)).trans ?_
  show edgeProduct (W5 m ρ c (Proc.devRef .tc main_v27)) (W5 m ρ c (Proc.devRef .tc main_v17)) = _
  rw [w5_v27 m ρ c, w5_v17 m ρ c]

theorem w6_v16 : W6 m ρ c (Proc.devRef .tc main_v16) = Cert.ReferenceIdeal.Read.val_main_v32 (F := F) (arg3 m c) := ((W6_of_ne m ρ c main_v16 (by decide)).trans (w5_v16 m ρ c))
theorem w6_v13 : W6 m ρ c (Proc.devRef .tc main_v13) = dinv m c := ((W6_of_ne m ρ c main_v13 (by decide)).trans (w5_v13 m ρ c))
theorem w6_v1 : W6 m ρ c (Proc.devRef .tc main_v1) = rowEnd m c := ((W6_of_ne m ρ c main_v1 (by decide)).trans (w5_v1 m ρ c))
theorem w6_v3 : W6 m ρ c (Proc.devRef .tc main_v3) = Cert.ReferenceIdeal.Read.val_main_v3 (F := F) (arg1 m c) := ((W6_of_ne m ρ c main_v3 (by decide)).trans (w5_v3 m ρ c))

set_option maxHeartbeats 2000000 in
theorem k1 : W7 m ρ c (Proc.devRef .tc main_v38) = feat1 m c := by
  have e0 := w6_v16 m ρ c
  have e1 := w6_v13 m ρ c
  have e2 := w6_v1 m ρ c
  have e3 := w6_v28 m ρ c
  show StableHlo.after hostOps1 (W6 m ρ c) (Proc.devRef .tc main_v38) = _
  generalize W6 m ρ c = V at e0 e1 e2 e3 ⊢
  after_results
  rw [e0, e1, e2, e3]
  rfl

set_option maxHeartbeats 4000000 in
theorem w7_v48 : W7 m ρ c (Proc.devRef .tc main_v48) = (Host.gather gather_S100000x64_S1600000x1_S1600000x64_1_0_n_n_0_1_164 (mulf (feat1 m c) (broadcastInDim S100000x64 ![0, 1] bcast_S100000x1_S100000x64_0_1 (broadcastInDim S100000x1 ![0] bcast_S100000_S100000x1_0 (dinv m c)))) (broadcastInDim S1600000x1 ![0] bcast_S1600000_S1600000x1_0 (colEnd m c))) := by
  have e0 := w6_v16 m ρ c
  have e1 := w6_v13 m ρ c
  have e2 := w6_v1 m ρ c
  have e3 := w6_v28 m ρ c
  have e4 := w6_v3 m ρ c
  show StableHlo.after hostOps1 (W6 m ρ c) (Proc.devRef .tc main_v48) = _
  generalize W6 m ρ c = V at e0 e1 e2 e3 e4 ⊢
  after_results
  rw [e0, e1, e2, e3, e4]
  rfl

/-! ## Layer 2 -/

theorem w7_v17 : W7 m ρ c (Proc.devRef .tc main_v17) = (shapeCast S1600000x1 (arg2 m c) shapeCasts_S1600000_S1600000x1) := ((keep7 m ρ c main_v17 (by decide)).trans (((W6_arr m ρ c 1).trans (((dat0 (V5 m ρ) c).arrAt_in 1 rfl _).trans (A_eq0 (V5 m ρ) c 1))).trans (w5_v17 m ρ c)))

theorem w8_v49 : W8 m ρ c (Proc.devRef .tc main_v49) = edgeProduct (Host.gather gather_S100000x64_S1600000x1_S1600000x64_1_0_n_n_0_1_164 (mulf (feat1 m c) (broadcastInDim S100000x64 ![0, 1] bcast_S100000x1_S100000x64_0_1 (broadcastInDim S100000x1 ![0] bcast_S100000_S100000x1_0 (dinv m c)))) (broadcastInDim S1600000x1 ![0] bcast_S1600000_S1600000x1_0 (colEnd m c))) (shapeCast S1600000x1 (arg2 m c) shapeCasts_S1600000_S1600000x1) := by
  refine ((W8_arr m ρ c 2).trans (product1 (V7 m ρ) c)).trans ?_
  show edgeProduct (W7 m ρ c (Proc.devRef .tc main_v48)) (W7 m ρ c (Proc.devRef .tc main_v17)) = _
  rw [w7_v48 m ρ c, w7_v17 m ρ c]

theorem w8_v16 : W8 m ρ c (Proc.devRef .tc main_v16) = Cert.ReferenceIdeal.Read.val_main_v32 (F := F) (arg3 m c) := ((W8_of_ne m ρ c main_v16 (by decide)).trans ((keep7 m ρ c main_v16 (by decide)).trans ((W6_of_ne m ρ c main_v16 (by decide)).trans (w5_v16 m ρ c))))
theorem w8_v13 : W8 m ρ c (Proc.devRef .tc main_v13) = dinv m c := ((W8_of_ne m ρ c main_v13 (by decide)).trans ((keep7 m ρ c main_v13 (by decide)).trans ((W6_of_ne m ρ c main_v13 (by decide)).trans (w5_v13 m ρ c))))
theorem w8_v1 : W8 m ρ c (Proc.devRef .tc main_v1) = rowEnd m c := ((W8_of_ne m ρ c main_v1 (by decide)).trans ((keep7 m ρ c main_v1 (by decide)).trans ((W6_of_ne m ρ c main_v1 (by decide)).trans (w5_v1 m ρ c))))
theorem w8_v3 : W8 m ρ c (Proc.devRef .tc main_v3) = Cert.ReferenceIdeal.Read.val_main_v3 (F := F) (arg1 m c) := ((W8_of_ne m ρ c main_v3 (by decide)).trans ((keep7 m ρ c main_v3 (by decide)).trans ((W6_of_ne m ρ c main_v3 (by decide)).trans (w5_v3 m ρ c))))

set_option maxHeartbeats 2000000 in
theorem k2 : W9 m ρ c (Proc.devRef .tc main_v59) = feat2 m c := by
  have e0 := w8_v16 m ρ c
  have e1 := w8_v13 m ρ c
  have e2 := w8_v1 m ρ c
  have e3 := w8_v49 m ρ c
  show StableHlo.after hostOps2 (W8 m ρ c) (Proc.devRef .tc main_v59) = _
  generalize W8 m ρ c = V at e0 e1 e2 e3 ⊢
  after_results
  rw [e0, e1, e2, e3]
  rfl

set_option maxHeartbeats 4000000 in
theorem w9_v69 : W9 m ρ c (Proc.devRef .tc main_v69) = (Host.gather gather_S100000x64_S1600000x1_S1600000x64_1_0_n_n_0_1_164 (mulf (feat2 m c) (broadcastInDim S100000x64 ![0, 1] bcast_S100000x1_S100000x64_0_1 (broadcastInDim S100000x1 ![0] bcast_S100000_S100000x1_0 (dinv m c)))) (broadcastInDim S1600000x1 ![0] bcast_S1600000_S1600000x1_0 (colEnd m c))) := by
  have e0 := w8_v16 m ρ c
  have e1 := w8_v13 m ρ c
  have e2 := w8_v1 m ρ c
  have e3 := w8_v49 m ρ c
  have e4 := w8_v3 m ρ c
  show StableHlo.after hostOps2 (W8 m ρ c) (Proc.devRef .tc main_v69) = _
  generalize W8 m ρ c = V at e0 e1 e2 e3 e4 ⊢
  after_results
  rw [e0, e1, e2, e3, e4]
  rfl

/-! ## Layer 3 and the stacked result -/

theorem w9_v17 : W9 m ρ c (Proc.devRef .tc main_v17) = (shapeCast S1600000x1 (arg2 m c) shapeCasts_S1600000_S1600000x1) := ((keep9 m ρ c main_v17 (by decide)).trans (((W8_arr m ρ c 1).trans (((dat1 (V7 m ρ) c).arrAt_in 1 rfl _).trans (A_eq1 (V7 m ρ) c 1))).trans (w7_v17 m ρ c)))

theorem w10_v70 : W10 m ρ c (Proc.devRef .tc main_v70) = edgeProduct (Host.gather gather_S100000x64_S1600000x1_S1600000x64_1_0_n_n_0_1_164 (mulf (feat2 m c) (broadcastInDim S100000x64 ![0, 1] bcast_S100000x1_S100000x64_0_1 (broadcastInDim S100000x1 ![0] bcast_S100000_S100000x1_0 (dinv m c)))) (broadcastInDim S1600000x1 ![0] bcast_S1600000_S1600000x1_0 (colEnd m c))) (shapeCast S1600000x1 (arg2 m c) shapeCasts_S1600000_S1600000x1) := by
  refine ((W10_arr m ρ c 2).trans (product2 (V9 m ρ) c)).trans ?_
  show edgeProduct (W9 m ρ c (Proc.devRef .tc main_v69)) (W9 m ρ c (Proc.devRef .tc main_v17)) = _
  rw [w9_v69 m ρ c, w9_v17 m ρ c]

theorem w10_v16 : W10 m ρ c (Proc.devRef .tc main_v16) = Cert.ReferenceIdeal.Read.val_main_v32 (F := F) (arg3 m c) := ((W10_of_ne m ρ c main_v16 (by decide)).trans ((keep9 m ρ c main_v16 (by decide)).trans ((W8_of_ne m ρ c main_v16 (by decide)).trans ((keep7 m ρ c main_v16 (by decide)).trans ((W6_of_ne m ρ c main_v16 (by decide)).trans (w5_v16 m ρ c))))))
theorem w10_v13 : W10 m ρ c (Proc.devRef .tc main_v13) = dinv m c := ((W10_of_ne m ρ c main_v13 (by decide)).trans ((keep9 m ρ c main_v13 (by decide)).trans ((W8_of_ne m ρ c main_v13 (by decide)).trans ((keep7 m ρ c main_v13 (by decide)).trans ((W6_of_ne m ρ c main_v13 (by decide)).trans (w5_v13 m ρ c))))))
theorem w10_v1 : W10 m ρ c (Proc.devRef .tc main_v1) = rowEnd m c := ((W10_of_ne m ρ c main_v1 (by decide)).trans ((keep9 m ρ c main_v1 (by decide)).trans ((W8_of_ne m ρ c main_v1 (by decide)).trans ((keep7 m ρ c main_v1 (by decide)).trans ((W6_of_ne m ρ c main_v1 (by decide)).trans (w5_v1 m ρ c))))))
theorem w10_arg0 : W10 m ρ c (Proc.devRef .tc main_arg0) = arg0 m c := ((W10_of_ne m ρ c main_arg0 (by decide)).trans ((keep9 m ρ c main_arg0 (by decide)).trans ((W8_of_ne m ρ c main_arg0 (by decide)).trans ((keep7 m ρ c main_arg0 (by decide)).trans ((W6_of_ne m ρ c main_arg0 (by decide)).trans (w5_arg0 m ρ c))))))
theorem w10_v38 : W10 m ρ c (Proc.devRef .tc main_v38) = feat1 m c := ((W10_of_ne m ρ c main_v38 (by decide)).trans ((keep9 m ρ c main_v38 (by decide)).trans ((W8_of_ne m ρ c main_v38 (by decide)).trans (k1 m ρ c))))
theorem w10_v59 : W10 m ρ c (Proc.devRef .tc main_v59) = feat2 m c := ((W10_of_ne m ρ c main_v59 (by decide)).trans (k2 m ρ c))

end Cert.KernelIdeal.Layers

end
-- ==== Proof.Ideal.Result.lean ====
/-
  THE RESULT of the kernel's program: its last stretch of host operations sums the third layer's products into the nodes,
  scales them, and stacks the arguments' features and the three layers' features along the middle axis.
-/
import proofs.«135441_j21414706938561_1_alg».proof.Proof.Ideal.Chain

set_option maxRecDepth 16384

noncomputable section

namespace Cert.KernelIdeal.Layers

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-- The last stretch over any contents `V`: the stacked array of the arguments' features, the first two layers' features as
    `V` holds them, and the third layer's, summed and scaled from `V`'s products. -/
theorem last_stretch (V : Valuation τ sig (Elt F)) :
    StableHlo.after hostOps3 V (Proc.devRef .tc main_v85)
      = concatenate S100000x4x64 1 [⟨S100000x1x64, broadcastInDim S100000x1x64 ![0, 2] bcast_S100000x64_S100000x1x64_0_2 (V (Proc.devRef .tc main_arg0))⟩, ⟨S100000x1x64, broadcastInDim S100000x1x64 ![0, 2] bcast_S100000x64_S100000x1x64_0_2 (V (Proc.devRef .tc main_v38))⟩, ⟨S100000x1x64, broadcastInDim S100000x1x64 ![0, 2] bcast_S100000x64_S100000x1x64_0_2 (V (Proc.devRef .tc main_v59))⟩, ⟨S100000x1x64, broadcastInDim S100000x1x64 ![0, 2] bcast_S100000x64_S100000x1x64_0_2 (mulf (broadcastInDim S100000x64 ![0, 1] bcast_S100000x1_S100000x64_0_1 (mulf (broadcastInDim S100000x1 ![] bcast_S_S100000x1 (shapeCast S_ (extractStridedSlice S1 ![3] (V (Proc.devRef .tc main_v16)) slices_S4_S1_3) shapeCasts_S1_S_)) (broadcastInDim S100000x1 ![0] bcast_S100000_S100000x1_0 (V (Proc.devRef .tc main_v13))))) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (V (Proc.devRef .tc main_v1))) (V (Proc.devRef .tc main_v70))))⟩] concatenates_S100000x1x64_S100000x1x64_S100000x1x64_S100000x1x64_S100000x4x64_d1 := by
  simp only [after_cons, after_nil]
  rw [nary4_result]
  rfl

theorem result : W11 m ρ c (Proc.devRef .tc main_v85) = concatenate S100000x4x64 1 [⟨S100000x1x64, broadcastInDim S100000x1x64 ![0, 2] bcast_S100000x64_S100000x1x64_0_2 (arg0 m c)⟩, ⟨S100000x1x64, broadcastInDim S100000x1x64 ![0, 2] bcast_S100000x64_S100000x1x64_0_2 (feat1 m c)⟩, ⟨S100000x1x64, broadcastInDim S100000x1x64 ![0, 2] bcast_S100000x64_S100000x1x64_0_2 (feat2 m c)⟩, ⟨S100000x1x64, broadcastInDim S100000x1x64 ![0, 2] bcast_S100000x64_S100000x1x64_0_2 (feat3 m c)⟩] concatenates_S100000x1x64_S100000x1x64_S100000x1x64_S100000x1x64_S100000x4x64_d1 := by
  refine (last_stretch (W10 m ρ c)).trans ?_
  rw [w10_v16 m ρ c, w10_v13 m ρ c, w10_v1 m ρ c, w10_v70 m ρ c, w10_arg0 m ρ c, w10_v38 m ρ c, w10_v59 m ρ c]
  rfl

end Cert.KernelIdeal.Layers

end
-- ==== Proof.Finite.lean ====
/-
  FINITENESS of everything a layer multiplies. The precondition says every float input is finite; from it: each entry of
  the features, the edge weights and the four raw coefficients is a real number. Then the numbers built from them are
  real too: a node's degree (a finite sum of weights), its inverse square root where the degree is positive and `0`
  elsewhere, and a layer's coefficient (one times the hyperbolic tangent of a real).
-/
import proofs.«135441_j21414706938561_1_alg».proof.Pre_finite_inputs
import proofs.«135441_j21414706938561_1_alg».proof.Proof.RealSums
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Cert.RealSums

/-- An extended real whose absolute value is below the f32 pattern of `+∞` is a real. -/
theorem fin_of_abs_lt (x : EReal)
    (h : FloatOps.cmpf (F := Ideal) (φ := .f32) .olt (FloatOps.hostAbsf (F := Ideal) (φ := .f32) x) (FloatOps.ofBits (F := Ideal) .f32 0x7F800000#32) = 1#1) :
    Fin' x := by
  have hinf : Ideal.ofBits .f32 0x7F800000#32 = ⊤ := by simp [Ideal.ofBits, Ideal.ieee]
  have h' : Ideal.cmp .olt (max x (-x)) (Ideal.ofBits .f32 0x7F800000#32) = 1#1 := h
  rw [hinf] at h'
  induction x using EReal.rec with
  | bot => simp [Ideal.cmp] at h'
  | coe r => exact ⟨r, rfl⟩
  | top => simp [Ideal.cmp] at h'

instance : Subsingleton (⟨0, ![]⟩ : Shape).Idx := ⟨fun a b => funext fun d => d.elim0⟩

/-- THE PRECONDITION READ: every entry of the features, of the edge weights and of the raw coefficients is a real. -/
theorem of_pre [Cert.Pre_finite_inputs.Facts] (x0 : FVec Ideal Cert.Pre_finite_inputs.S100000x64 .f32) (x1 : IVec Cert.Pre_finite_inputs.S2x1600000 32)
    (x2 : FVec Ideal Cert.Pre_finite_inputs.S1600000 .f32) (x3 : FVec Ideal Cert.Pre_finite_inputs.S4 .f32)
    (h : Cert.Pre_finite_inputs.fn (F := Ideal) x0 x1 x2 x3 = fun _ => 1#1) :
    (∀ i, Fin' (x0 i)) ∧ (∀ e, Fin' (x2 e)) ∧ (∀ k, Fin' (x3 k)) := by
  have h0 := congrFun h (fun a => a.elim0)
  dsimp only [Cert.Pre_finite_inputs.fn] at h0
  obtain ⟨h01, h3⟩ := IntOp.andi_eq_one.mp h0
  obtain ⟨h0', h2⟩ := IntOp.andi_eq_one.mp h01
  exact ⟨fun i => fin_of_abs_lt _ (Host.reduce_andi_all _ _ _ _ _ h0' i),
    fun e => fin_of_abs_lt _ (Host.reduce_andi_all _ _ _ _ _ h2 e),
    fun k => fin_of_abs_lt _ (Host.reduce_andi_all _ _ _ _ _ h3 k)⟩

/-- The inverse square-root degree as the program spells it — `deg > 0 ? rsqrt (deg > 0 ? deg : one) : zero` — is real at
    every node when the degree is: where the degree is positive its inverse square root is a positive real, elsewhere `0`. -/
theorem inv_sqrt_deg_fin {S : Shape} (deg z1 z2 one zero : FVec Ideal S .f32) (hdeg : ∀ n, Fin' (deg n))
    (hz1 : ∀ n, z1 n = 0) (hz2 : ∀ n, z2 n = 0) (hzero : ∀ n, zero n = 0) (n : S.Idx) :
    Fin' (select (cmpf .ogt deg z2) (Host.rsqrt (select (cmpf .ogt deg z1) deg one)) zero n) := by
  show Fin' (if Ideal.cmp .ogt (deg n) (z2 n) = 1 then Ideal.rsqrt (if Ideal.cmp .ogt (deg n) (z1 n) = 1 then deg n else one n) else zero n)
  rw [hz1, hz2, hzero]
  obtain ⟨r, hr⟩ := hdeg n
  rw [hr]
  by_cases hpos : (0 : ℝ) < r
  · have hc : Ideal.cmp .ogt (r : EReal) 0 = 1 := by simp [Ideal.cmp, hpos]
    rw [if_pos hc, if_pos hc, Ideal.rsqrt_coe, if_neg (not_lt.mpr hpos.le), if_neg hpos.ne']
    exact Fin'.coe _
  · have hc : ¬ Ideal.cmp .ogt (r : EReal) 0 = 1 := by simp [Ideal.cmp, hpos]
    rw [if_neg hc]
    exact Fin'.zero

/-- A degree — `zero` plus the weights of the edges that reach the node — is real when the weights are. -/
theorem degree_fin {s si u : Shape} (d : ScatterDims s si u) (z : FVec Ideal s .f32) (idx : IVec si 32) (w : FVec Ideal u .f32)
    (hz : ∀ n, z n = 0) (hw : ∀ e, Fin' (w e)) (n : s.Idx) : Fin' (Host.scatterAdd (F := Ideal) d z idx w n) := by
  show Fin' (z n + ∑ j ∈ Finset.univ.filter (fun j => d.resultIdx? j idx = some n), w j)
  rw [hz]
  exact Fin'.zero.add (Fin'.sum _ _ fun j _ => hw j)

/-- The f32 pattern of one is a real. -/
theorem one_fin : Fin' (Ideal.ofBits .f32 0x3F800000#32) := by
  refine ⟨8388608 * ((2 : ℝ) ^ 23)⁻¹, ?_⟩
  simp [Ideal.ofBits, Ideal.ieee]

/-- The coefficients `one · tanh raw` are real when the raw ones are. -/
theorem coef_fin {S : Shape} (one raw : FVec Ideal S .f32) (hone : ∀ k, Fin' (one k)) (hraw : ∀ k, Fin' (raw k)) (k : S.Idx) :
    Fin' (mulf one (Host.tanh raw) k) := by
  show Fin' (one k * Ideal.tanh (raw k))
  obtain ⟨r, hr⟩ := hraw k
  rw [hr, Ideal.tanh_coe]
  exact (hone k).mul (Fin'.coe _)

end Cert.Finite
-- ==== Proof.Reference.lean ====
/-
  THE REFERENCE, LAYER BY LAYER. The reference computes three message-passing layers one after the other; each is the
  weighted form of a layer (each edge weighted by its two ends' inverse square-root degrees and its own weight, times
  the source node's features, summed into the edge's end node, times the layer's coefficient), fed with the features
  the layer before it produced: this holds at any float values, the operations being the same ones in the same order.
  At the ideal values also: the end-node numbers the gathers use are the edge list's own wherever those are nonnegative,
  and the numbers every layer multiplies — the inverse square-root degrees and the three coefficients — are real when
  the inputs are.
-/
import proofs.«135441_j21414706938561_1_alg».proof.Proof.Gen.ReferenceIdeal.Read
import proofs.«135441_j21414706938561_1_alg».proof.Proof.Layer
import proofs.«135441_j21414706938561_1_alg».proof.Proof.Finite

noncomputable section

namespace Cert.ReferenceIdeal.Layers

open Idealize.ShloMosaic
open Cert.ReferenceIdeal Cert.ReferenceIdeal.Gen Cert.ReferenceIdeal.Read Cert.RealSums

/-! ## The three layers, at any float values -/

section Any
variable {F : FTy → Type} [FloatOps F]
variable (x0 : (⟨S100000x64, .f32⟩ : BufTy).Contents (Elt F)) (x1 : (⟨S2x1600000, .i32⟩ : BufTy).Contents (Elt F))
  (x2 : (⟨S1600000, .f32⟩ : BufTy).Contents (Elt F)) (x3 : (⟨S4, .f32⟩ : BufTy).Contents (Elt F))

/-- The first layer's features are the weighted form over the input features, with the second of the four coefficients. -/
theorem layer1 : val_main_v49 (F := F) x0 x1 x2 x3
    = Cert.Layer.weighted (F := F) bcast_S_S100000x64 bcast_S1600000_S1600000x1_0 bcast_S1600000x1_S1600000x64_0_1
      gather_S100000_S1600000x1_S1600000_n_0_n_n_0_1_1_wf gather_S100000x64_S1600000x1_S1600000x64_1_0_n_n_0_1_164_wf
      scatter_S100000x64_S1600000x1_S1600000x64_1_0_0_1_wf
      (val_main_v34 (F := F) x3) (val_main_v13 (F := F) x1 x2) (val_main_v1 (F := F) x1) (val_main_v18 (F := F) x1)
      (val_main_v40 (F := F) x1) x2 x0 := rfl

/-- The second layer's features are the weighted form over the first layer's, with the third coefficient. -/
theorem layer2 : val_main_v66 (F := F) x0 x1 x2 x3
    = Cert.Layer.weighted (F := F) bcast_S_S100000x64 bcast_S1600000_S1600000x1_0 bcast_S1600000x1_S1600000x64_0_1
      gather_S100000_S1600000x1_S1600000_n_0_n_n_0_1_1_wf gather_S100000x64_S1600000x1_S1600000x64_1_0_n_n_0_1_164_wf
      scatter_S100000x64_S1600000x1_S1600000x64_1_0_0_1_wf
      (val_main_v51 (F := F) x3) (val_main_v13 (F := F) x1 x2) (val_main_v1 (F := F) x1) (val_main_v18 (F := F) x1)
      (val_main_v40 (F := F) x1) x2 (val_main_v49 (F := F) x0 x1 x2 x3) := rfl

/-- The third layer's features are the weighted form over the second layer's, with the fourth coefficient. -/
theorem layer3 : val_main_v83 (F := F) x0 x1 x2 x3
    = Cert.Layer.weighted (F := F) bcast_S_S100000x64 bcast_S1600000_S1600000x1_0 bcast_S1600000x1_S1600000x64_0_1
      gather_S100000_S1600000x1_S1600000_n_0_n_n_0_1_1_wf gather_S100000x64_S1600000x1_S1600000x64_1_0_n_n_0_1_164_wf
      scatter_S100000x64_S1600000x1_S1600000x64_1_0_0_1_wf
      (val_main_v68 (F := F) x3) (val_main_v13 (F := F) x1 x2) (val_main_v1 (F := F) x1) (val_main_v18 (F := F) x1)
      (val_main_v40 (F := F) x1) x2 (val_main_v66 (F := F) x0 x1 x2 x3) := rfl

end Any

/-! ## At the ideal values -/

section AtIdeal
variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x3 : (⟨S4, .f32⟩ : BufTy).Contents (Elt Ideal))

/-- Where an edge's end-node number is nonnegative read signed, the number the gathers use for that end is the number
    itself: the comparison with zero is false, so nothing is added to it. -/
theorem row_norm (e : S1600000.Idx) :
    0 ≤ (val_main_v1 (F := Ideal) x1 e).toInt → val_main_v18 (F := Ideal) x1 e = val_main_v1 (F := Ideal) x1 e := by
  intro h
  rw [val_main_v18_apply, val_main_v15_apply, val_main_v14_apply, val_main_c_apply]
  generalize val_main_v1 (F := Ideal) x1 e = v at h ⊢
  have hc : IntOp.cmpi .slt v 0#32 = 0#1 := by
    show BitVec.ofBool (v.slt 0#32) = 0#1
    rw [BitVec.slt_eq_decide, BitVec.toInt_zero, decide_eq_false (by omega)]
    rfl
  rw [hc]
  exact ValueIdx.select_zero _ _

/-- A zero spread over the nodes is zero at every node. -/
theorem zeros_nodes (z : (⟨S_, .f32⟩ : BufTy).Contents (Elt Ideal)) (hz : z = constant (F := Ideal) S_ .f32 0x00000000#32) (n : S100000.Idx) :
    broadcastInDim S100000 ![] bcast_S_S100000 z n = (0 : EReal) := by
  rw [Cert.Layer.spread_scalar, hz]; exact Ideal.ofBits_zero_f32

/-- A node's degree — zero plus the weights of the edges that end at it — is real when the weights are. -/
theorem deg_fin (hw : ∀ e, Fin' (x2 e)) (n : S100000.Idx) : Fin' (val_main_v6 (F := Ideal) x1 x2 n) :=
  Cert.Finite.degree_fin scatter_S100000_S1600000x1_S1600000_n_0_0_1 (val_main_v4 (F := Ideal)) (val_main_v5 (F := Ideal) x1) x2
    (fun n => zeros_nodes _ rfl n) hw n

/-- A node's inverse square-root degree is real when the weights are: the inverse square root of a positive real
    degree, and zero where the degree is not positive. -/
theorem dinv_fin (hw : ∀ e, Fin' (x2 e)) (n : S100000.Idx) : Fin' (val_main_v13 (F := Ideal) x1 x2 n) :=
  Cert.Finite.inv_sqrt_deg_fin (val_main_v6 (F := Ideal) x1 x2) (val_main_v7 (F := Ideal)) (val_main_v10 (F := Ideal))
    (val_main_call0_v1 (F := Ideal)) (val_main_call1_v1 (F := Ideal)) (deg_fin x1 x2 hw)
    (fun n => zeros_nodes _ rfl n) (fun n => zeros_nodes _ rfl n) (fun n => zeros_nodes _ rfl n) n

/-- One times the hyperbolic tangent of a real coefficient is real, at each of the four places. -/
theorem coefs_fin (hx3 : ∀ k, Fin' (x3 k)) (k : S4.Idx) : Fin' (val_main_v32 (F := Ideal) x3 k) :=
  Cert.Finite.coef_fin (val_main_v31 (F := Ideal)) x3
    (fun k => by
      show Fin' (broadcastInDim S4 ![] bcast_S_S4 (val_main_cst_7 (F := Ideal)) k)
      rw [Cert.Layer.spread_scalar]; exact Cert.Finite.one_fin) hx3 k

/-- The first layer's coefficient, the second of the four, is real when the raw coefficients are. -/
theorem coef1_fin (hx3 : ∀ k, Fin' (x3 k)) : Fin' (val_main_v34 (F := Ideal) x3 (fun a => a.elim0)) := by
  unfold val_main_v34 val_main_v33 shapeCast extractStridedSlice
  exact coefs_fin x3 hx3 _
/-- The second layer's coefficient, the third of the four, is real when the raw coefficients are. -/
theorem coef2_fin (hx3 : ∀ k, Fin' (x3 k)) : Fin' (val_main_v51 (F := Ideal) x3 (fun a => a.elim0)) := by
  unfold val_main_v51 val_main_v50 shapeCast extractStridedSlice
  exact coefs_fin x3 hx3 _
/-- The third layer's coefficient, the last of the four, is real when the raw coefficients are. -/
theorem coef3_fin (hx3 : ∀ k, Fin' (x3 k)) : Fin' (val_main_v68 (F := Ideal) x3 (fun a => a.elim0)) := by
  unfold val_main_v68 val_main_v67 shapeCast extractStridedSlice
  exact coefs_fin x3 hx3 _

end AtIdeal

end Cert.ReferenceIdeal.Layers

end
-- ==== Proof.LayerEq.lean ====
/-
  The two forms of a layer are one array when every number is finite, and the weighted form of finite data is
  finite: entry by entry, the node's factor `d n` moves across the node's finite sum of finite terms (RealSums), on
  the edges that reach the node the row end's factor being `d n` itself.
-/
import proofs.«135441_j21414706938561_1_alg».proof.Proof.Layer

noncomputable section

namespace Cert.Layer

open Idealize.ShloMosaic Idealize.ShloMosaic.ValueIdx Cert.RealSums Cert.EdgeIndex
open scoped BigOperators

section Forms
variable (hsn : S0.BroadcastsInDim Sn1 (![] : Fin 0 → Fin Sn1.rank)) (hnc : Sn.BroadcastsInDim Sn1 (![0] : Fin 1 → Fin Sn1.rank))
  (hnr : Sn1.BroadcastsInDim Snd (![0, 1] : Fin 2 → Fin Snd.rank)) (hsd : S0.BroadcastsInDim Snd (![] : Fin 0 → Fin Snd.rank))
  (hec : Se.BroadcastsInDim Se1 (![0] : Fin 1 → Fin Se1.rank)) (her : Se1.BroadcastsInDim Sed (![0, 1] : Fin 2 → Fin Sed.rank))
  (hre : Se.ShapeCasts Se1)
  (wfg : GatherDims.WF Sn Se1 Se [] [0] [] [0] [] 1 ![1]) (wfG : GatherDims.WF Snd Se1 Sed [1] [0] [] [0] [] 1 ![1, 64])
  (wfS : ScatterDims.WF Snd Se1 Sed [1] [0] [0] 1)

/-- THE LAYER IDENTITY: with every number finite, the scaled form and the weighted form are one array. -/
theorem scaled_eq_weighted (a : FVec Ideal S0 .f32) (d : FVec Ideal Sn .f32) (rowI rowN colN : IVec Se 32) (w : FVec Ideal Se .f32)
    (h : FVec Ideal Snd .f32) (hrow : ∀ e : Se.Idx, 0 ≤ (rowI e).toInt → rowN e = rowI e)
    (ha : Fin' (a (fun x => x.elim0))) (hd : ∀ n, Fin' (d n)) (hw : ∀ e, Fin' (w e)) (hh : ∀ i, Fin' (h i)) :
    scaled hsn hnc hnr hsd hec hre wfG wfS a d rowI colN w h = weighted hsd hec her wfg wfG wfS a d rowI rowN colN w h := by
  funext i
  rw [scaled_entry, weighted_entry]
  have hz := zero_entry hsd i
  have hmem : ∀ j ∈ Finset.univ.filter (fun j : Sed.Idx => (rowScatter wfS).resultIdx? j (broadcastInDim Se1 ![0] hec rowI) = some i),
      (rowScatter wfS).resultIdx? j (broadcastInDim Se1 ![0] hec rowI) = some i := fun j hj => (Finset.mem_filter.mp hj).2
  generalize Finset.univ.filter (fun j : Sed.Idx => (rowScatter wfS).resultIdx? j (broadcastInDim Se1 ![0] hec rowI) = some i) = s at hmem ⊢
  generalize broadcastInDim Snd ![] hsd (constant (F := Ideal) S0 .f32 0x00000000#32) i = z at hz ⊢
  have hdR : ∀ j ∈ s, Host.gather (nodeGather wfg) d (broadcastInDim Se1 ![0] hec rowN) (edgeNo j) = d (nodeOf i) :=
    fun j hj => row_end hec wfg wfS d rowI rowN hrow i j (hmem j hj)
  have hD : Fin' (d (nodeOf i)) := hd (nodeOf i)
  have hh' : ∀ j : Sed.Idx, Fin' (h (src hec wfG colN j)) := fun j => hh (src hec wfG colN j)
  have hd' : ∀ j : Sed.Idx, Fin' (d (nodeOf (src hec wfG colN j))) := fun j => hd (nodeOf (src hec wfG colN j))
  have hw' : ∀ j : Sed.Idx, Fin' (w (edgeNo j)) := fun j => hw (edgeNo j)
  refine node_entry' s _ _ z _ _ (fun j => h (src hec wfG colN j))
    (fun j => d (nodeOf (src hec wfG colN j))) (fun j => w (edgeNo j)) (fun _ => d (nodeOf i))
    (fun j _ => rfl) (fun j hj => ?_) hz ha hD hh' hd' hw' (fun _ _ => rfl)
  rw [hdR j hj]

/-- The weighted form of finite data is finite. -/
theorem weighted_fin (a : FVec Ideal S0 .f32) (d : FVec Ideal Sn .f32) (rowI rowN colN : IVec Se 32) (w : FVec Ideal Se .f32)
    (h : FVec Ideal Snd .f32) (ha : Fin' (a (fun x => x.elim0))) (hd : ∀ n, Fin' (d n)) (hw : ∀ e, Fin' (w e)) (hh : ∀ i, Fin' (h i))
    (i : Snd.Idx) : Fin' (weighted hsd hec her wfg wfG wfS a d rowI rowN colN w h i) := by
  rw [weighted_entry]
  refine ha.mul (Fin'.add ?_ (Fin'.sum _ _ fun j _ => ?_))
  · rw [zero_entry]; exact Fin'.zero
  · exact (((hd _).mul (hw _)).mul (hd _)).mul (hh _)

end Forms

end Cert.Layer

end
-- ==== Proof.Bridge.lean ====
/-
  THE TWO PROGRAMS COMPUTE ONE ARRAY, at the ideal values and for finite inputs. The kernel's program is three
  applications of the scaled form of a layer, the reference's three applications of the weighted form, over the same
  inverse square-root degrees, coefficients, edge ends and weights; the two forms agree on finite data (the layer
  identity), and each layer's output is finite again, so the agreement passes from layer to layer. The results are the
  four feature arrays stacked.
-/
import proofs.«135441_j21414706938561_1_alg».proof.Proof.Ideal.Result
import proofs.«135441_j21414706938561_1_alg».proof.Proof.Reference
import proofs.«135441_j21414706938561_1_alg».proof.Proof.LayerEq
import proofs.«135441_j21414706938561_1_alg».proof.Proof.Finite

set_option maxRecDepth 16384

noncomputable section

namespace Cert.Bridge

open Idealize.ShloMosaic Idealize.ShloMosaic.TcCoe Idealize.SL.Sem Cert.RealSums
open Cert.KernelIdeal Cert.KernelIdeal.Gen Cert.KernelIdeal.Layers

/-- The reference's result is its four feature arrays stacked (at any reading of the float operations). -/
theorem stacked {F : FTy → Type} [FloatOps F] (x0 : FVec F S100000x64 .f32) (x1 : IVec S2x1600000 32) (x2 : FVec F S1600000 .f32) (x3 : FVec F S4 .f32) :
    concatenate S100000x4x64 1 [⟨S100000x1x64, broadcastInDim S100000x1x64 ![0, 2] bcast_S100000x64_S100000x1x64_0_2 x0⟩, ⟨S100000x1x64, broadcastInDim S100000x1x64 ![0, 2] bcast_S100000x64_S100000x1x64_0_2 (Cert.ReferenceIdeal.Read.val_main_v49 (F := F) x0 x1 x2 x3)⟩, ⟨S100000x1x64, broadcastInDim S100000x1x64 ![0, 2] bcast_S100000x64_S100000x1x64_0_2 (Cert.ReferenceIdeal.Read.val_main_v66 (F := F) x0 x1 x2 x3)⟩, ⟨S100000x1x64, broadcastInDim S100000x1x64 ![0, 2] bcast_S100000x64_S100000x1x64_0_2 (Cert.ReferenceIdeal.Read.val_main_v83 (F := F) x0 x1 x2 x3)⟩] concatenates_S100000x1x64_S100000x1x64_S100000x1x64_S100000x1x64_S100000x4x64_d1
      = Cert.ReferenceIdeal.Read.val_main_v88 (F := F) x0 x1 x2 x3 := rfl

variable (m : (ℓ : Loc nD τ sig) → Buf (Elt Ideal) ℓ) (ρ : Dev nD → PrngReg) (c : Dev nD)

/-- The weighted form of a layer over this program's degrees, ends and weights. -/
abbrev wt (a : FVec Ideal S_ .f32) (h : FVec Ideal S100000x64 .f32) : FVec Ideal S100000x64 .f32 :=
  Cert.Layer.weighted (F := Ideal) bcast_S_S100000x64 bcast_S1600000_S1600000x1_0 Cert.ReferenceIdeal.Gen.bcast_S1600000x1_S1600000x64_0_1 Cert.ReferenceIdeal.Gen.gather_S100000_S1600000x1_S1600000_n_0_n_n_0_1_1_wf gather_S100000x64_S1600000x1_S1600000x64_1_0_n_n_0_1_164_wf scatter_S100000x64_S1600000x1_S1600000x64_1_0_0_1_wf a (dinv m c) (rowEnd m c) (Cert.ReferenceIdeal.Read.val_main_v18 (F := Ideal) (arg1 m c)) (colEnd m c) (arg2 m c) h

/-- One layer: on finite features and a finite coefficient the scaled form is the weighted form. -/
theorem step (h2 : ∀ e, Fin' (arg2 m c e)) (a : FVec Ideal S_ .f32) (h : FVec Ideal S100000x64 .f32) (ha : Fin' (a (fun x => x.elim0))) (hh : ∀ i, Fin' (h i)) :
    layer m c a h = wt m c a h :=
  Cert.Layer.scaled_eq_weighted bcast_S_S100000x1 bcast_S100000_S100000x1_0 bcast_S100000x1_S100000x64_0_1 bcast_S_S100000x64 bcast_S1600000_S1600000x1_0 Cert.ReferenceIdeal.Gen.bcast_S1600000x1_S1600000x64_0_1 shapeCasts_S1600000_S1600000x1 Cert.ReferenceIdeal.Gen.gather_S100000_S1600000x1_S1600000_n_0_n_n_0_1_1_wf gather_S100000x64_S1600000x1_S1600000x64_1_0_n_n_0_1_164_wf scatter_S100000x64_S1600000x1_S1600000x64_1_0_0_1_wf
    a (dinv m c) (rowEnd m c) (Cert.ReferenceIdeal.Read.val_main_v18 (F := Ideal) (arg1 m c)) (colEnd m c) (arg2 m c) h
    (Cert.ReferenceIdeal.Layers.row_norm (arg1 m c)) ha (Cert.ReferenceIdeal.Layers.dinv_fin (arg1 m c) (arg2 m c) h2) h2 hh

/-- … and the weighted form is finite again. -/
theorem wt_fin (h2 : ∀ e, Fin' (arg2 m c e)) (a : FVec Ideal S_ .f32) (h : FVec Ideal S100000x64 .f32) (ha : Fin' (a (fun x => x.elim0))) (hh : ∀ i, Fin' (h i))
    (i : S100000x64.Idx) : Fin' (wt m c a h i) :=
  Cert.Layer.weighted_fin bcast_S_S100000x64 bcast_S1600000_S1600000x1_0 Cert.ReferenceIdeal.Gen.bcast_S1600000x1_S1600000x64_0_1 Cert.ReferenceIdeal.Gen.gather_S100000_S1600000x1_S1600000_n_0_n_n_0_1_1_wf gather_S100000x64_S1600000x1_S1600000x64_1_0_n_n_0_1_164_wf scatter_S100000x64_S1600000x1_S1600000x64_1_0_0_1_wf
    a (dinv m c) (rowEnd m c) (Cert.ReferenceIdeal.Read.val_main_v18 (F := Ideal) (arg1 m c)) (colEnd m c) (arg2 m c) h
    ha (Cert.ReferenceIdeal.Layers.dinv_fin (arg1 m c) (arg2 m c) h2) h2 hh i

theorem feat1_wt (h0 : ∀ i, Fin' (arg0 m c i)) (h2 : ∀ e, Fin' (arg2 m c e)) (h3 : ∀ k, Fin' (arg3 m c k)) : feat1 m c = wt m c (Cert.ReferenceIdeal.Read.val_main_v34 (F := Ideal) (arg3 m c)) (arg0 m c) :=
  step m c h2 _ _ (Cert.ReferenceIdeal.Layers.coef1_fin (arg3 m c) h3) h0
theorem feat1_eq (h0 : ∀ i, Fin' (arg0 m c i)) (h2 : ∀ e, Fin' (arg2 m c e)) (h3 : ∀ k, Fin' (arg3 m c k)) : feat1 m c = Cert.ReferenceIdeal.Read.val_main_v49 (F := Ideal) (arg0 m c) (arg1 m c) (arg2 m c) (arg3 m c) :=
  (feat1_wt m c h0 h2 h3).trans (Cert.ReferenceIdeal.Layers.layer1 (F := Ideal) (arg0 m c) (arg1 m c) (arg2 m c) (arg3 m c)).symm
theorem feat1_fin (h0 : ∀ i, Fin' (arg0 m c i)) (h2 : ∀ e, Fin' (arg2 m c e)) (h3 : ∀ k, Fin' (arg3 m c k)) (i : S100000x64.Idx) : Fin' (feat1 m c i) := by
  rw [feat1_wt m c h0 h2 h3]; exact wt_fin m c h2 _ _ (Cert.ReferenceIdeal.Layers.coef1_fin (arg3 m c) h3) h0 i

theorem feat2_wt (h0 : ∀ i, Fin' (arg0 m c i)) (h2 : ∀ e, Fin' (arg2 m c e)) (h3 : ∀ k, Fin' (arg3 m c k)) : feat2 m c = wt m c (Cert.ReferenceIdeal.Read.val_main_v51 (F := Ideal) (arg3 m c)) (feat1 m c) :=
  step m c h2 _ _ (Cert.ReferenceIdeal.Layers.coef2_fin (arg3 m c) h3) (feat1_fin m c h0 h2 h3)
theorem feat2_eq (h0 : ∀ i, Fin' (arg0 m c i)) (h2 : ∀ e, Fin' (arg2 m c e)) (h3 : ∀ k, Fin' (arg3 m c k)) : feat2 m c = Cert.ReferenceIdeal.Read.val_main_v66 (F := Ideal) (arg0 m c) (arg1 m c) (arg2 m c) (arg3 m c) :=
  (feat2_wt m c h0 h2 h3).trans ((congrArg (wt m c (Cert.ReferenceIdeal.Read.val_main_v51 (F := Ideal) (arg3 m c))) (feat1_eq m c h0 h2 h3)).trans
    (Cert.ReferenceIdeal.Layers.layer2 (F := Ideal) (arg0 m c) (arg1 m c) (arg2 m c) (arg3 m c)).symm)
theorem feat2_fin (h0 : ∀ i, Fin' (arg0 m c i)) (h2 : ∀ e, Fin' (arg2 m c e)) (h3 : ∀ k, Fin' (arg3 m c k)) (i : S100000x64.Idx) : Fin' (feat2 m c i) := by
  rw [feat2_wt m c h0 h2 h3]; exact wt_fin m c h2 _ _ (Cert.ReferenceIdeal.Layers.coef2_fin (arg3 m c) h3) (feat1_fin m c h0 h2 h3) i

theorem feat3_wt (h0 : ∀ i, Fin' (arg0 m c i)) (h2 : ∀ e, Fin' (arg2 m c e)) (h3 : ∀ k, Fin' (arg3 m c k)) : feat3 m c = wt m c (Cert.ReferenceIdeal.Read.val_main_v68 (F := Ideal) (arg3 m c)) (feat2 m c) :=
  step m c h2 _ _ (Cert.ReferenceIdeal.Layers.coef3_fin (arg3 m c) h3) (feat2_fin m c h0 h2 h3)
theorem feat3_eq (h0 : ∀ i, Fin' (arg0 m c i)) (h2 : ∀ e, Fin' (arg2 m c e)) (h3 : ∀ k, Fin' (arg3 m c k)) : feat3 m c = Cert.ReferenceIdeal.Read.val_main_v83 (F := Ideal) (arg0 m c) (arg1 m c) (arg2 m c) (arg3 m c) :=
  (feat3_wt m c h0 h2 h3).trans ((congrArg (wt m c (Cert.ReferenceIdeal.Read.val_main_v68 (F := Ideal) (arg3 m c))) (feat2_eq m c h0 h2 h3)).trans
    (Cert.ReferenceIdeal.Layers.layer3 (F := Ideal) (arg0 m c) (arg1 m c) (arg2 m c) (arg3 m c)).symm)

/-- THE KERNEL'S RESULT IS THE REFERENCE'S: the stacked array the kernel's program leaves is the reference's stage of the
    same arguments. -/
theorem kernel_value (h0 : ∀ i, Fin' (arg0 m c i)) (h2 : ∀ e, Fin' (arg2 m c e)) (h3 : ∀ k, Fin' (arg3 m c k)) : W11 m ρ c (Proc.devRef .tc main_v85) = Cert.ReferenceIdeal.Read.val_main_v88 (F := Ideal) (arg0 m c) (arg1 m c) (arg2 m c) (arg3 m c) := by
  refine (result m ρ c).trans ?_
  rw [feat3_eq m c h0 h2 h3, feat2_eq m c h0 h2 h3, feat1_eq m c h0 h2 h3]
  exact stacked (arg0 m c) (arg1 m c) (arg2 m c) (arg3 m c)

end Cert.Bridge

end
-- ==== Proof.lean ====
/-
  The certificate's five claims for the three-layer message-passing kernel against its reference.
  FRAMES. The kernel's program (as printed, and idealized) is eleven stretches: host operations, then for each of the three
  layers an edge product over 125 blocks of 12800 edges followed by host operations. Every stretch runs to its end and
  writes only its own buffers, none of them an argument (Bits/Run, Ideal/Run). The reference is host operations only; its
  generated run gives its frame.
  PRESERVES. The idealization rewrote no operation: nothing to state.
  ALGEBRAIC. At the ideal values the kernel's program leaves, in its result, the four feature arrays stacked, each layer in
  its scaled form `(a · d n) · Σ_{e → n} (h (col e) · d (col e)) · w e` (Ideal/Chain, with each edge product read as one array:
  Ideal/Products); the reference computes the weighted form `a · Σ_{e → n} ((d (row e) · w e) · d (col e)) · h (col e)`
  (Reference). The inputs being finite, every number is a real (Finite), the two forms agree layer by layer
  (Layer, LayerEq over RealSums and EdgeIndex), and the two results are one array (Bridge).
-/
import proofs.«135441_j21414706938561_1_alg».proof.Defs
import proofs.«135441_j21414706938561_1_alg».proof.Proof.Gen.Kernel
import proofs.«135441_j21414706938561_1_alg».proof.Proof.Gen.KernelIdeal
import proofs.«135441_j21414706938561_1_alg».proof.Proof.Gen.ReferenceIdeal
import proofs.«135441_j21414706938561_1_alg».proof.Proof.Gen.Pre_finite_inputs
import proofs.«135441_j21414706938561_1_alg».proof.Proof.Gen.ReferenceIdeal.Run
import proofs.«135441_j21414706938561_1_alg».proof.Proof.Gen.ReferenceIdeal.Read
import proofs.«135441_j21414706938561_1_alg».proof.Proof.Bits.Run
import proofs.«135441_j21414706938561_1_alg».proof.Proof.Ideal.Run
import proofs.«135441_j21414706938561_1_alg».proof.Proof.Bridge
import Idealize.ShloMosaic.Adequacy
import Idealize.ShloMosaic.Init

noncomputable section

namespace Cert.Proof

open Idealize.ShloMosaic Idealize.SL.Sem

theorem frame_p : Cert.frame_Kernel :=
  fun m ρ _ => Cert.Kernel.Layers.frame m ρ

theorem frame_pi : Cert.frame_KernelIdeal :=
  fun m ρ _ => Cert.KernelIdeal.Layers.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the reference's stage of those arguments in their
    results: the kernel's by the walk through its eleven stretches and the layer identity (the inputs are finite), the
    reference's by its generated run. -/
theorem algebraic : Cert.algebraic_KernelIdeal_ReferenceIdeal := by
  intro m ρ m' ρ' hpre hagree
  have hfin := fun c : Dev Cert.KernelIdeal.nD => Cert.Finite.of_pre _ _ _ _ (hpre c)
  refine ⟨fun c => Cert.ReferenceIdeal.Read.val_main_v88 (F := Ideal) (Cert.KernelIdeal.Layers.arg0 m c) (Cert.KernelIdeal.Layers.arg1 m c) (Cert.KernelIdeal.Layers.arg2 m c) (Cert.KernelIdeal.Layers.arg3 m c), ?_, ?_⟩
  · refine (θ_run Cert.KernelIdeal.defs _ _).mono (fun r h c => ⟨?_, ?_, ?_, ?_, ?_⟩) (Cert.KernelIdeal.Layers.run_all m ρ)
    · exact (h c _ (Cert.KernelIdeal.Layers.mem_uc Cert.KernelIdeal.main_v85 (by decide))).trans
        (Cert.Bridge.kernel_value m ρ c (hfin c).1 (hfin c).2.1 (hfin c).2.2)
    · exact (h c _ (Cert.KernelIdeal.Layers.mem_uc Cert.KernelIdeal.main_arg0 (by decide))).trans (Cert.KernelIdeal.Layers.W11_main_arg0 m ρ c)
    · exact (h c _ (Cert.KernelIdeal.Layers.mem_uc Cert.KernelIdeal.main_arg1 (by decide))).trans (Cert.KernelIdeal.Layers.W11_main_arg1 m ρ c)
    · exact (h c _ (Cert.KernelIdeal.Layers.mem_uc Cert.KernelIdeal.main_arg2 (by decide))).trans (Cert.KernelIdeal.Layers.W11_main_arg2 m ρ c)
    · exact (h c _ (Cert.KernelIdeal.Layers.mem_uc Cert.KernelIdeal.main_arg3 (by decide))).trans (Cert.KernelIdeal.Layers.W11_main_arg3 m ρ c)
  · refine (θ_run Cert.ReferenceIdeal.defs _ _).mono (fun r h c => ⟨?_, (h c).2⟩) (Cert.ReferenceIdeal.Value.run (F := Ideal) m' ρ')
    rw [(h c).1, Cert.ReferenceIdeal.Read.val_main_v88_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
